-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x256 : Shape := ⟨3, ![16, 900, 256]⟩
abbrev S16x900x4 : Shape := ⟨3, ![16, 900, 4]⟩
abbrev S16x100x4 : Shape := ⟨3, ![16, 100, 4]⟩
abbrev S16x100x256 : Shape := ⟨3, ![16, 100, 256]⟩
abbrev S_ : Shape := ⟨0, ![]⟩

class Facts : Prop where
  bcast_S_S16x900x256 : S_.BroadcastsInDim S16x900x256 (![] : Fin 0 → Fin S16x900x256.rank)
  reducesTo_S16x900x256_S_d0_1_2 : S16x900x256.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S16x100x4 : S_.BroadcastsInDim S16x100x4 (![] : Fin 0 → Fin S16x100x4.rank)
  reducesTo_S16x100x4_S_d0_1_2 : S16x100x4.ReducesTo [0, 1, 2] S_
  bcast_S_S16x100x256 : S_.BroadcastsInDim S16x100x256 (![] : Fin 0 → Fin S16x100x256.rank)
  reducesTo_S16x100x256_S_d0_1_2 : S16x100x256.ReducesTo [0, 1, 2] S_

variable [Facts]

def fn_part1 {F : FTy → Type} [FloatOps F] (main_v13 : IVec S_ 1) (main_v16 : IVec S16x100x256 1) : IVec S_ 1 :=
  let main_c_5 : IVec S_ 1 := constantI S_ 1 1#1
  let main_v17 : IVec S_ 1 := (fun x v => Host.reduce IntOp.andi x v reducesTo_S16x100x256_S_d0_1_2 h_S_) main_v16 main_c_5
  let main_v18 : IVec S_ 1 := andi main_v13 main_v17
  main_v18

def fn {F : FTy → Type} [FloatOps F] (main_arg0 : FVec F S16x900x256 .f32) (main_arg1 : FVec F S16x900x4 .f32) (main_arg2 : FVec F S16x100x4 .f32) (main_arg3 : FVec F S16x100x256 .f32) : IVec S_ 1 :=
  let main_v0 : FVec F S16x900x256 .f32 := Host.absf main_arg0
  let main_cst : FVec F S_ .f32 := constant S_ .f32 0x7F800000#32
  let main_v1 : FVec F S16x900x256 .f32 := broadcastInDim S16x900x256 ![] bcast_S_S16x900x256 main_cst
  let main_v2 : IVec S16x900x256 1 := cmpf .olt main_v0 main_v1
  let main_c : IVec S_ 1 := constantI S_ 1 1#1
  let main_v3 : IVec S_ 1 := (fun x v => Host.reduce IntOp.andi x v reducesTo_S16x900x256_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S16x100x4 .f32 := Host.absf main_arg2
  let main_cst_2 : FVec F S_ .f32 := constant S_ .f32 0x7F800000#32
  let main_v10 : FVec F S16x100x4 .f32 := broadcastInDim S16x100x4 ![] bcast_S_S16x100x4 main_cst_2
  let main_v11 : IVec S16x100x4 1 := cmpf .olt main_v9 main_v10
  let main_c_3 : IVec S_ 1 := constantI S_ 1 1#1
  let main_v12 : IVec S_ 1 := (fun x v => Host.reduce IntOp.andi x v reducesTo_S16x100x4_S_d0_1_2 h_S_) main_v11 main_c_3
  let main_v13 : IVec S_ 1 := andi main_v8 main_v12
  let main_v14 : FVec F S16x100x256 .f32 := Host.absf main_arg3
  let main_cst_4 : FVec F S_ .f32 := constant S_ .f32 0x7F800000#32
  let main_v15 : FVec F S16x100x256 .f32 := broadcastInDim S16x100x256 ![] bcast_S_S16x100x256 main_cst_4
  let main_v16 : IVec S16x100x256 1 := cmpf .olt main_v14 main_v15
  fn_part1 (F := F) main_v13 main_v16
-- ==== Kernel.lean ====
abbrev S16x900x256 : Shape := ⟨3, ![16, 900, 256]⟩
abbrev S16x900x4 : Shape := ⟨3, ![16, 900, 4]⟩
abbrev S16x100x4 : Shape := ⟨3, ![16, 100, 4]⟩
abbrev S16x100x256 : Shape := ⟨3, ![16, 100, 256]⟩
abbrev S14400x256 : Shape := ⟨2, ![14400, 256]⟩
abbrev S14400x4 : Shape := ⟨2, ![14400, 4]⟩
abbrev S1600x256 : Shape := ⟨2, ![1600, 256]⟩
abbrev S1600x4 : Shape := ⟨2, ![1600, 4]⟩
abbrev S256x1600 : Shape := ⟨2, ![256, 1600]⟩
abbrev S4x1600 : Shape := ⟨2, ![4, 1600]⟩
abbrev S14400x1600 : Shape := ⟨2, ![14400, 1600]⟩
abbrev S240x256 : Shape := ⟨2, ![240, 256]⟩
abbrev S240x4 : Shape := ⟨2, ![240, 4]⟩
abbrev S240x1600 : Shape := ⟨2, ![240, 1600]⟩
abbrev S240x1 : Shape := ⟨2, ![240, 1]⟩
abbrev S1x1600 : Shape := ⟨2, ![1, 1600]⟩
abbrev S16x900x1600 : Shape := ⟨3, ![16, 900, 1600]⟩

abbrev nBuf : Space → Nat
  | .hbm => 13
  | .vmem => 8
  | .smem => 0
  | _ => 0

abbrev bufTy : (tb : Table) → Fin (tcTables nBuf tb) → BufTy
  | .hbm, ⟨0, _⟩ => ⟨S16x900x256, .f32⟩
  | .hbm, ⟨1, _⟩ => ⟨S16x900x4, .f32⟩
  | .hbm, ⟨2, _⟩ => ⟨S16x100x4, .f32⟩
  | .hbm, ⟨3, _⟩ => ⟨S16x100x256, .f32⟩
  | .hbm, ⟨4, _⟩ => ⟨S14400x256, .f32⟩
  | .hbm, ⟨5, _⟩ => ⟨S14400x4, .f32⟩
  | .hbm, ⟨6, _⟩ => ⟨S1600x256, .f32⟩
  | .hbm, ⟨7, _⟩ => ⟨S1600x4, .f32⟩
  | .hbm, ⟨8, _⟩ => ⟨S256x1600, .f32⟩
  | .hbm, ⟨9, _⟩ => ⟨S256x1600, .bf16⟩
  | .hbm, ⟨10, _⟩ => ⟨S4x1600, .f32⟩
  | .hbm, ⟨11, _⟩ => ⟨S14400x1600, .f32⟩
  | .hbm, ⟨12, _⟩ => ⟨S16x900x1600, .f32⟩
  | .local _ .vmem, ⟨0, _⟩ => ⟨S240x256, .f32⟩
  | .local _ .vmem, ⟨1, _⟩ => ⟨S240x256, .f32⟩
  | .local _ .vmem, ⟨2, _⟩ => ⟨S240x4, .f32⟩
  | .local _ .vmem, ⟨3, _⟩ => ⟨S240x4, .f32⟩
  | .local _ .vmem, ⟨4, _⟩ => ⟨S256x1600, .bf16⟩
  | .local _ .vmem, ⟨5, _⟩ => ⟨S4x1600, .f32⟩
  | .local _ .vmem, ⟨6, _⟩ => ⟨S240x1600, .f32⟩
  | .local _ .vmem, ⟨7, _⟩ => ⟨S240x1600, .f32⟩
  | _, _ => ⟨S16x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S240x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x256_S14400x256 : S16x900x256.ShapeCasts S14400x256
  shapeCasts_S16x900x4_S14400x4 : S16x900x4.ShapeCasts S14400x4
  shapeCasts_S16x100x256_S1600x256 : S16x100x256.ShapeCasts S1600x256
  shapeCasts_S16x100x4_S1600x4 : S16x100x4.ShapeCasts S1600x4
  transposes_S1600x256_S256x1600_1_0 : S1600x256.Transposes [1, 0] S256x1600
  bitsLt_bf16_f32 : FTy.bits .bf16 < FTy.bits .f32
  transposes_S1600x4_S4x1600_1_0 : S1600x4.Transposes [1, 0] S4x1600
  inb_S240x256_S240x256_0_0 : ∀ a, (![0, 0] : Fin 2 → Nat) a + S240x256.size a ≤ S240x256.size a
  h_S240x256 : 0 < S240x256.numel
  shapeCasts_S240x256_S240x256 : S240x256.ShapeCasts S240x256
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S240x4_S240x4_0_0 : ∀ a, (![0, 0] : Fin 2 → Nat) a + S240x4.size a ≤ S240x4.size a
  h_S240x4 : 0 < S240x4.numel
  shapeCasts_S240x4_S240x4 : S240x4.ShapeCasts S240x4
  slices_S240x4_o0_0_S240x1 : S240x4.Slices ![0, 0] S240x1
  slices_S240x4_o0_1_S240x1 : S240x4.Slices ![0, 1] S240x1
  slices_S240x4_o0_2_S240x1 : S240x4.Slices ![0, 2] S240x1
  slices_S240x4_o0_3_S240x1 : S240x4.Slices ![0, 3] S240x1
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S240x1_S240x1600 : S240x1.Broadcasts S240x1600
  broadcasts_S1x1600_S240x1600 : S1x1600.Broadcasts S240x1600
  inb_S240x1600_S240x1600_0_0 : ∀ a, (![0, 0] : Fin 2 → Nat) a + S240x1600.size a ≤ S240x1600.size a
  h_S240x1600 : 0 < S240x1600.numel
  shapeCasts_S14400x1600_S16x900x1600 : S14400x1600.ShapeCasts S16x900x1600
  dot_S240x256_S256x1600_S240x1600_1_0_0_1_n_n_wf : DotDims.WF S240x256 S256x1600 S240x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x256.size a ≤ S14400x256.size a
  hwx0_0 : ∀ i : grid0.Coords, EltTy.bits .f32 = 32 ∨ (Rect.block (s := S14400x256) S240x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S240x4.size a ≤ S14400x4.size a
  hwx0_1 : ∀ i : grid0.Coords, EltTy.bits .f32 = 32 ∨ (Rect.block (s := S14400x4) S240x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1600.size a ≤ S256x1600.size a
  hwx0_2 : ∀ i : grid0.Coords, EltTy.bits .bf16 = 32 ∨ (Rect.block (s := S256x1600) S256x1600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S240x1600.size a ≤ S14400x1600.size a
  hwx0_4 : ∀ i : grid0.Coords, EltTy.bits .f32 = 32 ∨ (Rect.block (s := S14400x1600) S240x1600.size (cc0_transform_4 i) (hinb0_4 i)).WholeWords (EltTy.packing .f32)

variable [Facts₀]

def dot_S240x256_S256x1600_S240x1600_1_0_0_1_n_n : DotDims S240x256 S256x1600 S240x1600 where
  lhsContracting := [1]
  rhsContracting := [0]
  lhsNonContracting := [0]
  rhsNonContracting := [1]
  lhsBatch := []
  rhsBatch := []
  wf := dot_S240x256_S256x1600_S240x1600_1_0_0_1_n_n_wf

abbrev win0_0 : Pipeline.Window sig grid0 :=
  Pipeline.Window.ofSpec (Memref.whole main_v0) S240x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S240x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S240x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x256 : Shape := ⟨3, ![16, 900, 256]⟩
abbrev S16x900x4 : Shape := ⟨3, ![16, 900, 4]⟩
abbrev S16x100x4 : Shape := ⟨3, ![16, 100, 4]⟩
abbrev S16x100x256 : Shape := ⟨3, ![16, 100, 256]⟩
abbrev S14400x256 : Shape := ⟨2, ![14400, 256]⟩
abbrev S14400x4 : Shape := ⟨2, ![14400, 4]⟩
abbrev S1600x256 : Shape := ⟨2, ![1600, 256]⟩
abbrev S1600x4 : Shape := ⟨2, ![1600, 4]⟩
abbrev S_ : Shape := ⟨0, ![]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S1600x1 : Shape := ⟨2, ![1600, 1]⟩
abbrev S1600 : Shape := ⟨1, ![1600]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 211
  | .vmem => 0
  | .smem => 0
  | _ => 0

abbrev hbmTy0_0 (i : Nat) : BufTy := match i % 128 with
  | 0 => ⟨S16x900x256, .f32⟩
  | 1 => ⟨S16x900x4, .f32⟩
  | 2 => ⟨S16x100x4, .f32⟩
  | 3 => ⟨S16x100x256, .f32⟩
  | 4 => ⟨S14400x256, .f32⟩
  | 5 => ⟨S14400x4, .f32⟩
  | 6 => ⟨S1600x256, .f32⟩
  | 7 => ⟨S1600x4, .f32⟩
  | 8 => ⟨S14400x256, .f32⟩
  | 9 => ⟨S14400x256, .f32⟩
  | 10 => ⟨S_, .f32⟩
  | 11 => ⟨S14400x256, .f32⟩
  | 12 => ⟨S14400x256, .f32⟩
  | 13 => ⟨S_, .f32⟩
  | 14 => ⟨S14400x256, .f32⟩
  | 15 => ⟨S14400x256, .f32⟩
  | 16 => ⟨S_, .f32⟩
  | 17 => ⟨S14400x256, .f32⟩
  | 18 => ⟨S14400x256, .f32⟩
  | 19 => ⟨S_, .f32⟩
  | 20 => ⟨S14400x256, .f32⟩
  | 21 => ⟨S14400x256, .f32⟩
  | 22 => ⟨S_, .f32⟩
  | 23 => ⟨S14400x256, .f32⟩
  | 24 => ⟨S14400x256, .f32⟩
  | 25 => ⟨S_, .f32⟩
  | 26 => ⟨S14400x256, .f32⟩
  | 27 => ⟨S14400x256, .f32⟩
  | 28 => ⟨S14400x256, .f32⟩
  | 29 => ⟨S14400x256, .f32⟩
  | 30 => ⟨S14400x256, .f32⟩
  | 31 => ⟨S_, .f32⟩
  | 32 => ⟨S14400x256, .f32⟩
  | 33 => ⟨S14400x256, .f32⟩
  | 34 => ⟨S_, .f32⟩
  | 35 => ⟨S14400x256, .f32⟩
  | 36 => ⟨S14400x256, .f32⟩
  | 37 => ⟨S_, .f32⟩
  | 38 => ⟨S14400x256, .f32⟩
  | 39 => ⟨S14400x256, .f32⟩
  | 40 => ⟨S_, .f32⟩
  | 41 => ⟨S14400x256, .f32⟩
  | 42 => ⟨S14400x256, .f32⟩
  | 43 => ⟨S14400x256, .f32⟩
  | 44 => ⟨S14400x256, .f32⟩
  | 45 => ⟨S14400x256, .f32⟩
  | 46 => ⟨S14400x1600, .f32⟩
  | 47 => ⟨S_, .f32⟩
  | 48 => ⟨S1600x256, .f32⟩
  | 49 => ⟨S1600x256, .f32⟩
  | 50 => ⟨S14400x1600, .f32⟩
  | 51 => ⟨S14400x1600, .f32⟩
  | 52 => ⟨S14400x1x4, .f32⟩
  | 53 => ⟨S1x1600x4, .f32⟩
  | 54 => ⟨S14400x1600x4, .f32⟩
  | 55 => ⟨S14400x1600x4, .f32⟩
  | 56 => ⟨S14400x1600x4, .f32⟩
  | 57 => ⟨S14400x1600x4, .f32⟩
  | 58 => ⟨S_, .f32⟩
  | 59 => ⟨S14400x1600, .f32⟩
  | 60 => ⟨S14400x1, .f32⟩
  | 61 => ⟨S14400, .f32⟩
  | 62 => ⟨S14400x1, .f32⟩
  | 63 => ⟨S14400, .f32⟩
  | 64 => ⟨S14400x1, .f32⟩
  | 65 => ⟨S14400, .f32⟩
  | 66 => ⟨S14400x1, .f32⟩
  | 67 => ⟨S14400, .f32⟩
  | 68 => ⟨S_, .f32⟩
  | 69 => ⟨S14400, .f32⟩
  | 70 => ⟨S14400, .f32⟩
  | 71 => ⟨S14400, .f32⟩
  | 72 => ⟨S_, .f32⟩
  | 73 => ⟨S14400, .f32⟩
  | 74 => ⟨S14400, .f32⟩
  | 75 => ⟨S14400, .f32⟩
  | 76 => ⟨S_, .f32⟩
  | 77 => ⟨S14400, .f32⟩
  | 78 => ⟨S14400, .f32⟩
  | 79 => ⟨S14400, .f32⟩
  | 80 => ⟨S_, .f32⟩
  | 81 => ⟨S14400, .f32⟩
  | 82 => ⟨S14400, .f32⟩
  | 83 => ⟨S14400, .f32⟩
  | 84 => ⟨S14400x1, .f32⟩
  | 85 => ⟨S14400x1, .f32⟩
  | 86 => ⟨S14400x1, .f32⟩
  | 87 => ⟨S14400x1, .f32⟩
  | 88 => ⟨S14400x4, .f32⟩
  | 89 => ⟨S1600x1, .f32⟩
  | 90 => ⟨S1600, .f32⟩
  | 91 => ⟨S1600x1, .f32⟩
  | 92 => ⟨S1600, .f32⟩
  | 93 => ⟨S1600x1, .f32⟩
  | 94 => ⟨S1600, .f32⟩
  | 95 => ⟨S1600x1, .f32⟩
  | 96 => ⟨S1600, .f32⟩
  | 97 => ⟨S_, .f32⟩
  | 98 => ⟨S1600, .f32⟩
  | 99 => ⟨S1600, .f32⟩
  | 100 => ⟨S1600, .f32⟩
  | 101 => ⟨S_, .f32⟩
  | 102 => ⟨S1600, .f32⟩
  | 103 => ⟨S1600, .f32⟩
  | 104 => ⟨S1600, .f32⟩
  | 105 => ⟨S_, .f32⟩
  | 106 => ⟨S1600, .f32⟩
  | 107 => ⟨S1600, .f32⟩
  | 108 => ⟨S1600, .f32⟩
  | 109 => ⟨S_, .f32⟩
  | 110 => ⟨S1600, .f32⟩
  | 111 => ⟨S1600, .f32⟩
  | 112 => ⟨S1600, .f32⟩
  | 113 => ⟨S1600x1, .f32⟩
  | 114 => ⟨S1600x1, .f32⟩
  | 115 => ⟨S1600x1, .f32⟩
  | 116 => ⟨S1600x1, .f32⟩
  | 117 => ⟨S1600x4, .f32⟩
  | 118 => ⟨S14400x1, .f32⟩
  | 119 => ⟨S14400, .f32⟩
  | 120 => ⟨S14400x1, .f32⟩
  | 121 => ⟨S14400, .f32⟩
  | 122 => ⟨S14400, .f32⟩
  | 123 => ⟨S14400x1, .f32⟩
  | 124 => ⟨S14400, .f32⟩
  | 125 => ⟨S14400x1, .f32⟩
  | 126 => ⟨S14400, .f32⟩
  | 127 => ⟨S14400, .f32⟩
  | _ => ⟨S16x900x256, .f32⟩

abbrev hbmTy0_1 (i : Nat) : BufTy := match i % 128 with
  | 0 => ⟨S14400, .f32⟩
  | 1 => ⟨S1600x1, .f32⟩
  | 2 => ⟨S1600, .f32⟩
  | 3 => ⟨S1600x1, .f32⟩
  | 4 => ⟨S1600, .f32⟩
  | 5 => ⟨S1600, .f32⟩
  | 6 => ⟨S1600x1, .f32⟩
  | 7 => ⟨S1600, .f32⟩
  | 8 => ⟨S1600x1, .f32⟩
  | 9 => ⟨S1600, .f32⟩
  | 10 => ⟨S1600, .f32⟩
  | 11 => ⟨S1600, .f32⟩
  | 12 => ⟨S14400x2, .f32⟩
  | 13 => ⟨S14400x1x2, .f32⟩
  | 14 => ⟨S1600x2, .f32⟩
  | 15 => ⟨S1x1600x2, .f32⟩
  | 16 => ⟨S14400x1600x2, .f32⟩
  | 17 => ⟨S14400x1600x2, .f32⟩
  | 18 => ⟨S14400x1600x2, .f32⟩
  | 19 => ⟨S14400x2, .f32⟩
  | 20 => ⟨S14400x1x2, .f32⟩
  | 21 => ⟨S1600x2, .f32⟩
  | 22 => ⟨S1x1600x2, .f32⟩
  | 23 => ⟨S14400x1600x2, .f32⟩
  | 24 => ⟨S14400x1600x2, .f32⟩
  | 25 => ⟨S14400x1600x2, .f32⟩
  | 26 => ⟨S14400x1600x2, .f32⟩
  | 27 => ⟨S_, .f32⟩
  | 28 => ⟨S_, .f32⟩
  | 29 => ⟨S14400x1600x2, .f32⟩
  | 30 => ⟨S14400x1600x2, .f32⟩
  | 31 => ⟨S14400x1600x1, .f32⟩
  | 32 => ⟨S14400x1600, .f32⟩
  | 33 => ⟨S14400x1600x1, .f32⟩
  | 34 => ⟨S14400x1600, .f32⟩
  | 35 => ⟨S14400x1600, .f32⟩
  | 36 => ⟨S14400x1, .f32⟩
  | 37 => ⟨S1x1600, .f32⟩
  | 38 => ⟨S14400x1600, .f32⟩
  | 39 => ⟨S14400x1600, .f32⟩
  | 40 => ⟨S14400x1600, .f32⟩
  | 41 => ⟨S14400x1600, .f32⟩
  | 42 => ⟨S14400x1600, .f32⟩
  | 43 => ⟨S14400x2, .f32⟩
  | 44 => ⟨S14400x1x2, .f32⟩
  | 45 => ⟨S1600x2, .f32⟩
  | 46 => ⟨S1x1600x2, .f32⟩
  | 47 => ⟨S14400x1600x2, .f32⟩
  | 48 => ⟨S14400x1600x2, .f32⟩
  | 49 => ⟨S14400x1600x2, .f32⟩
  | 50 => ⟨S14400x2, .f32⟩
  | 51 => ⟨S14400x1x2, .f32⟩
  | 52 => ⟨S1600x2, .f32⟩
  | 53 => ⟨S1x1600x2, .f32⟩
  | 54 => ⟨S14400x1600x2, .f32⟩
  | 55 => ⟨S14400x1600x2, .f32⟩
  | 56 => ⟨S14400x1600x2, .f32⟩
  | 57 => ⟨S14400x1600x2, .f32⟩
  | 58 => ⟨S_, .f32⟩
  | 59 => ⟨S_, .f32⟩
  | 60 => ⟨S14400x1600x2, .f32⟩
  | 61 => ⟨S14400x1600x2, .f32⟩
  | 62 => ⟨S14400x1600x1, .f32⟩
  | 63 => ⟨S14400x1600, .f32⟩
  | 64 => ⟨S14400x1600x1, .f32⟩
  | 65 => ⟨S14400x1600, .f32⟩
  | 66 => ⟨S14400x1600, .f32⟩
  | 67 => ⟨S14400x1600, .f32⟩
  | 68 => ⟨S14400x1600, .f32⟩
  | 69 => ⟨S14400x1600, .f32⟩
  | 70 => ⟨S14400x1600, .f32⟩
  | 71 => ⟨S_, .f32⟩
  | 72 => ⟨S14400x1600, .f32⟩
  | 73 => ⟨S14400x1600, .f32⟩
  | 74 => ⟨S_, .f32⟩
  | 75 => ⟨S14400x1600, .f32⟩
  | 76 => ⟨S14400x1600, .f32⟩
  | 77 => ⟨S14400x1600, .f32⟩
  | 78 => ⟨S_, .f32⟩
  | 79 => ⟨S14400x1600, .f32⟩
  | 80 => ⟨S14400x1600, .f32⟩
  | 81 => ⟨S14400x1600, .f32⟩
  | 82 => ⟨S16x900x1600, .f32⟩
  | _ => ⟨S16x900x256, .f32⟩

abbrev hbmTy (i : Nat) : BufTy := match i / 128 with
  | 0 => hbmTy0_0 i
  | 1 => hbmTy0_1 i
  | _ => ⟨S16x900x256, .f32⟩

abbrev bufTy : (tb : Table) → Fin (tcTables nBuf tb) → BufTy
  | .hbm, ⟨i, _⟩ => hbmTy i
  | _, _ => ⟨S16x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_16 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_18 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_19 : Ref sig .tc := ⟨.hbm, 155, rfl⟩
abbrev main_call0_v0 : Ref sig .tc := ⟨.hbm, 156, rfl⟩
abbrev main_call0_v1 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_cst_20 : Ref sig .tc := ⟨.hbm, 186, rfl⟩
abbrev main_call1_v0 : Ref sig .tc := ⟨.hbm, 187, rfl⟩
abbrev main_call1_v1 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_21 : Ref sig .tc := ⟨.hbm, 199, rfl⟩
abbrev main_v169 : Ref sig .tc := ⟨.hbm, 200, rfl⟩
abbrev main_v170 : Ref sig .tc := ⟨.hbm, 201, rfl⟩
abbrev main_cst_22 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_23 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩

abbrev nD : Nat := 1
abbrev τ : Topo := Topo.v7x

variable {F : FTy → Type} [FloatOps F]

class Facts₀ : Prop where
  shapeCasts_S16x900x256_S14400x256 : S16x900x256.ShapeCasts S14400x256
  shapeCasts_S16x900x4_S14400x4 : S16x900x4.ShapeCasts S14400x4
  shapeCasts_S16x100x256_S1600x256 : S16x100x256.ShapeCasts S1600x256
  shapeCasts_S16x100x4_S1600x4 : S16x100x4.ShapeCasts S1600x4
  bcast_S_S14400x256 : S_.BroadcastsInDim S14400x256 (![] : Fin 0 → Fin S14400x256.rank)
  bcast_S_S1600x256 : S_.BroadcastsInDim S1600x256 (![] : Fin 0 → Fin S1600x256.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  dot_S14400x256_S1600x256_S14400x1600_1_1_0_0_n_n_wf : DotDims.WF S14400x256 S1600x256 S14400x1600 [1] [1] [0] [0] [] []

variable [Facts₀]

def dot_S14400x256_S1600x256_S14400x1600_1_1_0_0_n_n : DotDims S14400x256 S1600x256 S14400x1600 where
  lhsContracting := [1]
  rhsContracting := [1]
  lhsNonContracting := [0]
  rhsNonContracting := [0]
  lhsBatch := []
  rhsBatch := []
  wf := dot_S14400x256_S1600x256_S14400x1600_1_1_0_0_n_n_wf

class Facts : Prop extends Facts₀ where

variable [Facts]
-- ==== Proof.Spec.lean ====
/-
  One entry of the matching-cost matrix, as each of the two programs computes it, and why the two agree.

  An entry pairs one prediction (a row of 256 class logits and a box cx, cy, w, h) with one target (256 token
  labels and a box). It is 5 · L1 + 1 · class + 2 · (−GIoU), where
    • class = Σ_k pos(x_k) · lab_k − Σ_k neg(x_k) · (1 − lab_k), with the focal terms
      pos(x) = ¼ (1 − σ x)² · (−log (σ x + ε)) and neg(x) = ¾ (σ x)² · (−log (1 − σ x + ε)), σ the logistic function;
    • L1 is the sum of the four absolute coordinate differences;
    • GIoU = inter / union − (hull − union) / hull, computed from the corner form of the two boxes.
  The two programs differ in three places only. One squares by a product, the other by a power with exponent 2:
  σ x is always a real number, and a real to the power 2 is its square. One takes the area of the prediction as
  w · h, the other as (x₁ − x₀)(y₁ − y₀) of the corners cx ∓ ½ w, cy ∓ ½ h: for real cx and w,
  (cx + ½ w) − (cx − ½ w) = w. One writes −g as 0 − g and sums the four absolute differences directly, the other
  negates and starts the sum from 0. Everything else is the same expression on both sides, so the quotients, whose
  value at a zero denominator is never inspected, are quotients of equal arguments.
-/
import Idealize.ShloMosaic.PureOps.Ideal
import Mathlib

noncomputable section

namespace Cert.Matcher

open Idealize.ShloMosaic
open scoped BigOperators

/-! ## The float words the programs spell -/

abbrev c1 : EReal := Ideal.ofBits .f32 0x3F800000#32
abbrev c1b : EReal := Ideal.ofBits .bf16 0x3F80#16
abbrev c0 : EReal := Ideal.ofBits .f32 0x00000000#32
abbrev cHalf : EReal := Ideal.ofBits .f32 0x3F000000#32
abbrev c34 : EReal := Ideal.ofBits .f32 0x3F400000#32
abbrev c14 : EReal := Ideal.ofBits .f32 0x3E800000#32
abbrev cEps : EReal := Ideal.ofBits .f32 0x322BCC77#32
abbrev c5 : EReal := Ideal.ofBits .f32 0x40A00000#32
abbrev c2 : EReal := Ideal.ofBits .f32 0x40000000#32

theorem c1_eq : c1 = 1 := by
  simp [Ideal.ofBits, Ideal.ieee, -EReal.coe_mul]; norm_num
theorem c1b_eq : c1b = 1 := by
  simp [Ideal.ofBits, Ideal.ieee, -EReal.coe_mul]; norm_num
theorem c0_eq : c0 = 0 := by
  simp [Ideal.ofBits, Ideal.ieee]
theorem cHalf_eq : cHalf = ((1 / 2 : ℝ) : EReal) := by
  simp [Ideal.ofBits, Ideal.ieee, -EReal.coe_mul]; norm_num
theorem c2_eq : c2 = ((2 : ℝ) : EReal) := by
  simp [Ideal.ofBits, Ideal.ieee, -EReal.coe_mul]; norm_num

/-! ## The class cost -/

/-- The logistic function takes real values everywhere on the extended reals (0 at −∞, 1 at +∞). -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- A real to the power 2 (a real exponent) is its square. -/
theorem pow_two_real (r : ℝ) : Ideal.pow (r : EReal) c2 = (r : EReal) * (r : EReal) := by
  rw [c2_eq]
  show ((Real.rpow r 2 : ℝ) : EReal) = _
  rw [← EReal.coe_mul]
  congr 1
  show r ^ (2 : ℝ) = r * r
  rw [Real.rpow_two, sq]

/-- The negative-label focal term as the kernel writes it. -/
def negK (x : EReal) : EReal :=
  (c34 * (Ideal.logistic x * Ideal.logistic x)) * (c0 - Ideal.log ((c1 - Ideal.logistic x) + cEps))
/-- The positive-label focal term as the kernel writes it. -/
def posK (x : EReal) : EReal :=
  (c14 * ((c1 - Ideal.logistic x) * (c1 - Ideal.logistic x))) * (c0 - Ideal.log (Ideal.logistic x + cEps))
/-- The reference's logistic function, spelt out. -/
def sigR (x : EReal) : EReal := Ideal.div c1 (c1 + Ideal.exp (-x))
/-- The negative-label focal term as the reference writes it. -/
def negR (x : EReal) : EReal :=
  (c34 * Ideal.pow (sigR x) c2) * (-(Ideal.log ((c1 - sigR x) + cEps)))
/-- The positive-label focal term as the reference writes it. -/
def posR (x : EReal) : EReal :=
  (c14 * Ideal.pow (c1 - sigR x) c2) * (-(Ideal.log (sigR x + cEps)))

theorem sigR_eq (x : EReal) : sigR x = Ideal.logistic x := by
  unfold sigR Ideal.logistic; rw [c1_eq]

theorem negR_eq (x : EReal) : negR x = negK x := by
  unfold negR negK
  rw [sigR_eq]
  obtain ⟨r, hr⟩ := logistic_real x
  rw [hr, pow_two_real, c0_eq, zero_sub]

theorem posR_eq (x : EReal) : posR x = posK x := by
  unfold posR posK
  rw [sigR_eq]
  obtain ⟨r, hr⟩ := logistic_real x
  rw [hr, c1_eq, c0_eq, zero_sub]
  have h1 : (1 : EReal) - (r : EReal) = ((1 - r : ℝ) : EReal) := by
    rw [EReal.coe_sub, EReal.coe_one]
  rw [h1, pow_two_real]

/-- The class cost of one entry as the kernel accumulates it: labels enter as they are and as 1 − label, the
    1 being the 16-bit word of 1.0. -/
def clsK (row lab : Fin 256 → EReal) : EReal :=
  (∑ k, posK (row k) * lab k) - (∑ k, negK (row k) * (c1b - lab k))
/-- The class cost of one entry as the reference accumulates it. -/
def clsR (row lab : Fin 256 → EReal) : EReal :=
  (∑ k, posR (row k) * lab k) - (∑ k, negR (row k) * (c1 - lab k))

theorem clsR_eq (row lab : Fin 256 → EReal) : clsR row lab = clsK row lab := by
  unfold clsR clsK
  simp only [posR_eq, negR_eq, c1_eq, c1b_eq]

/-! ## The box costs -/

/-- The sum of the four absolute coordinate differences, added left to right. -/
def l1K (cx cy w h tcx tcy tw th : EReal) : EReal :=
  ((max (cx - tcx) (-(cx - tcx)) + max (cy - tcy) (-(cy - tcy))) + max (w - tw) (-(w - tw))) + max (h - th) (-(h - th))

/-- GIoU from the corners of the two boxes and their two areas. -/
def giouOf (px0 py0 px1 py1 tx0 ty0 tx1 ty1 a1 a2 : EReal) : EReal :=
  Ideal.div (max c0 (min px1 tx1 - max px0 tx0) * max c0 (min py1 ty1 - max py0 ty0))
      ((a1 + a2) - max c0 (min px1 tx1 - max px0 tx0) * max c0 (min py1 ty1 - max py0 ty0))
    - Ideal.div ((max c0 (max px1 tx1 - min px0 tx0) * max c0 (max py1 ty1 - min py0 ty0))
        - ((a1 + a2) - max c0 (min px1 tx1 - max px0 tx0) * max c0 (min py1 ty1 - max py0 ty0)))
      (max c0 (max px1 tx1 - min px0 tx0) * max c0 (max py1 ty1 - min py0 ty0))

/-- GIoU as the kernel computes it: the areas are w · h. -/
def giouK (cx cy w h tcx tcy tw th : EReal) : EReal :=
  giouOf (cx - cHalf * w) (cy - cHalf * h) (cx + cHalf * w) (cy + cHalf * h)
    (tcx - cHalf * tw) (tcy - cHalf * th) (tcx + cHalf * tw) (tcy + cHalf * th) (w * h) (tw * th)

/-- GIoU as the reference computes it: the areas are taken from the corners. -/
def giouR (cx cy w h tcx tcy tw th : EReal) : EReal :=
  giouOf (cx - cHalf * w) (cy - cHalf * h) (cx + cHalf * w) (cy + cHalf * h)
    (tcx - cHalf * tw) (tcy - cHalf * th) (tcx + cHalf * tw) (tcy + cHalf * th)
    (((cx + cHalf * w) - (cx - cHalf * w)) * ((cy + cHalf * h) - (cy - cHalf * h)))
    (((tcx + cHalf * tw) - (tcx - cHalf * tw)) * ((tcy + cHalf * th) - (tcy - cHalf * th)))

/-- For real centre and extent, the distance between the two corners cx ± ½ w is w. -/
theorem extent_eq (c w : ℝ) : ((c : EReal) + cHalf * (w : EReal)) - ((c : EReal) - cHalf * (w : EReal)) = (w : EReal) := by
  rw [cHalf_eq, ← EReal.coe_mul, ← EReal.coe_add, ← EReal.coe_sub, ← EReal.coe_sub]
  congr 1; ring

theorem giouR_eq (cx cy w h tcx tcy tw th : ℝ) :
    giouR cx cy w h tcx tcy tw th = giouK cx cy w h tcx tcy tw th := by
  unfold giouR giouK
  rw [extent_eq, extent_eq, extent_eq, extent_eq]

/-- One entry as the kernel combines its three costs. -/
def cellK (cls l1 g : EReal) : EReal := (c5 * l1 + c1 * cls) + c2 * (c0 - g)
/-- One entry as the reference combines them: the L1 sum started from 0, the GIoU negated. -/
def cellR (cls l1 g : EReal) : EReal := (c5 * (c0 + l1) + c1 * cls) + c2 * (-g)

theorem cellR_eq (cls l1 g : EReal) : cellR cls l1 g = cellK cls l1 g := by
  unfold cellR cellK
  rw [c0_eq, zero_add, zero_sub]

/-- The whole entry, kernel's way. -/
def entryK (row lab : Fin 256 → EReal) (cx cy w h tcx tcy tw th : EReal) : EReal :=
  cellK (clsK row lab) (l1K cx cy w h tcx tcy tw th) (giouK cx cy w h tcx tcy tw th)
/-- The whole entry, reference's way. -/
def entryR (row lab : Fin 256 → EReal) (cx cy w h tcx tcy tw th : EReal) : EReal :=
  cellR (clsR row lab) (l1K cx cy w h tcx tcy tw th) (giouR cx cy w h tcx tcy tw th)

/-- At real box coordinates (the class logits and the labels may be any extended reals) the two programs'
    entries are equal. -/
theorem entryR_eq (row lab : Fin 256 → EReal) (cx cy w h tcx tcy tw th : ℝ) :
    entryR row lab cx cy w h tcx tcy tw th = entryK row lab cx cy w h tcx tcy tw th := by
  unfold entryR entryK
  rw [cellR_eq, clsR_eq, giouR_eq]

end Cert.Matcher

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.KernelCell.lean ====
/-
  One entry of the kernel's output tile.

  The body's stored value, read at row p and column q of a 240 × 1600 tile, depends on row p of the logits tile,
  row p of the prediction boxes, column q of the transposed labels and column q of the transposed target boxes: it
  is the matching-cost entry of that prediction and that target, in the kernel's arrangement.
-/
import proofs.«167287_j34170759807565_1_alg».proof.Proof.Gen.KernelIdeal.Skeleton
import proofs.«167287_j34170759807565_1_alg».proof.Proof.Spec
import proofs.«167287_j34170759807565_1_alg».proof.Proof.LibKeepdims
import proofs.«167287_j34170759807565_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Cell

open Cert.KernelIdeal Cert.KernelIdeal.Gen Cert.Matcher
open Idealize.ShloMosaic Idealize.ShloMosaic.ValueIdx
open scoped BigOperators

/-! ## Pointwise operations the library has no index lemma for -/

theorem absf_at {s : Shape} {φ : FTy} (a : FVec Ideal s φ) (i : s.Idx) : absf a i = max (a i) (-(a i)) := rfl
theorem logistic_at {s : Shape} {φ : FTy} (a : FVec Ideal s φ) (i : s.Idx) : logistic a i = Ideal.logistic (a i) := rfl
theorem log_at {s : Shape} {φ : FTy} (a : FVec Ideal s φ) (i : s.Idx) : log a i = Ideal.log (a i) := rfl

/-! ## The box coordinates: columns of the prediction tile, rows of the target tile -/

variable (x1 : Vec Ideal S240x4 .f32) (x3 : Vec Ideal S4x1600 .f32)

theorem pay3_at (p : Fin 240) : k0_pay3 x1 (ix2 p (0 : Fin 1)) = x1 (ix2 p (0 : Fin 4)) := by
  unfold k0_pay3 k0_pay2
  rw [shapeCast_self]
  exact slice2_axis1_apply 0 x1 _ p 0 0 rfl
theorem pay4_at (p : Fin 240) : k0_pay4 x1 (ix2 p (0 : Fin 1)) = x1 (ix2 p (1 : Fin 4)) := by
  unfold k0_pay4 k0_pay2
  rw [shapeCast_self]
  exact slice2_axis1_apply 1 x1 _ p 0 1 rfl
theorem pay5_at (p : Fin 240) : k0_pay5 x1 (ix2 p (0 : Fin 1)) = x1 (ix2 p (2 : Fin 4)) := by
  unfold k0_pay5 k0_pay2
  rw [shapeCast_self]
  exact slice2_axis1_apply 2 x1 _ p 0 2 rfl
theorem pay6_at (p : Fin 240) : k0_pay6 x1 (ix2 p (0 : Fin 1)) = x1 (ix2 p (3 : Fin 4)) := by
  unfold k0_pay6 k0_pay2
  rw [shapeCast_self]
  exact slice2_axis1_apply 3 x1 _ p 0 3 rfl

theorem pay13_at (q : Fin 1600) : k0_pay13 x3 (ix2 (0 : Fin 1) q) = x3 (ix2 (0 : Fin 4) q) := by
  unfold k0_pay13 k0_pay12
  rw [shapeCast_self]
  exact slice2_axis0_apply 0 x3 _ 0 q 0 rfl
theorem pay14_at (q : Fin 1600) : k0_pay14 x3 (ix2 (0 : Fin 1) q) = x3 (ix2 (1 : Fin 4) q) := by
  unfold k0_pay14 k0_pay12
  rw [shapeCast_self]
  exact slice2_axis0_apply 1 x3 _ 0 q 1 rfl
theorem pay15_at (q : Fin 1600) : k0_pay15 x3 (ix2 (0 : Fin 1) q) = x3 (ix2 (2 : Fin 4) q) := by
  unfold k0_pay15 k0_pay12
  rw [shapeCast_self]
  exact slice2_axis0_apply 2 x3 _ 0 q 2 rfl
theorem pay16_at (q : Fin 1600) : k0_pay16 x3 (ix2 (0 : Fin 1) q) = x3 (ix2 (3 : Fin 4) q) := by
  unfold k0_pay16 k0_pay12
  rw [shapeCast_self]
  exact slice2_axis0_apply 3 x3 _ 0 q 3 rfl

/-! ## The corners and areas -/

theorem pay7_at (p : Fin 240) :
    k0_pay7 x1 (ix2 p (0 : Fin 1)) = x1 (ix2 p (0 : Fin 4)) - cHalf * x1 (ix2 p (2 : Fin 4)) := by
  unfold k0_pay7
  show k0_pay3 x1 (ix2 p (0 : Fin 1)) - cHalf * k0_pay5 x1 (ix2 p (0 : Fin 1)) = _
  rw [pay3_at, pay5_at]

theorem pay8_at (v35 v37 : FVec Ideal S240x1 .f32) (c : Ideal .f32) (p : Fin 240) :
    k0_pay8 v35 v37 c (ix2 p (0 : Fin 1)) = v35 (ix2 p (0 : Fin 1)) - c * v37 (ix2 p (0 : Fin 1)) := rfl
theorem pay9_at (v34 v36 : FVec Ideal S240x1 .f32) (p : Fin 240) :
    k0_pay9 v34 v36 (ix2 p (0 : Fin 1)) = v34 (ix2 p (0 : Fin 1)) + cHalf * v36 (ix2 p (0 : Fin 1)) := rfl
theorem pay10_at (v35 v37 : FVec Ideal S240x1 .f32) (p : Fin 240) :
    k0_pay10 v35 v37 (ix2 p (0 : Fin 1)) = v35 (ix2 p (0 : Fin 1)) + cHalf * v37 (ix2 p (0 : Fin 1)) := rfl
theorem pay11_at (v36 v37 : FVec Ideal S240x1 .f32) (p : Fin 240) :
    k0_pay11 v36 v37 (ix2 p (0 : Fin 1)) = v36 (ix2 p (0 : Fin 1)) * v37 (ix2 p (0 : Fin 1)) := rfl

theorem pay17_at (q : Fin 1600) :
    k0_pay17 x3 (ix2 (0 : Fin 1) q) = x3 (ix2 (0 : Fin 4) q) - cHalf * x3 (ix2 (2 : Fin 4) q) := by
  unfold k0_pay17
  show k0_pay13 x3 (ix2 (0 : Fin 1) q) - cHalf * k0_pay15 x3 (ix2 (0 : Fin 1) q) = _
  rw [pay13_at, pay15_at]
theorem pay18_at (q : Fin 1600) :
    k0_pay18 x3 (ix2 (0 : Fin 1) q) = x3 (ix2 (1 : Fin 4) q) - cHalf * x3 (ix2 (3 : Fin 4) q) := by
  unfold k0_pay18
  show k0_pay14 x3 (ix2 (0 : Fin 1) q) - cHalf * k0_pay16 x3 (ix2 (0 : Fin 1) q) = _
  rw [pay14_at, pay16_at]
theorem pay19_at (q : Fin 1600) :
    k0_pay19 x3 (ix2 (0 : Fin 1) q) = x3 (ix2 (0 : Fin 4) q) + cHalf * x3 (ix2 (2 : Fin 4) q) := by
  unfold k0_pay19
  show k0_pay13 x3 (ix2 (0 : Fin 1) q) + cHalf * k0_pay15 x3 (ix2 (0 : Fin 1) q) = _
  rw [pay13_at, pay15_at]
theorem pay20_at (q : Fin 1600) :
    k0_pay20 x3 (ix2 (0 : Fin 1) q) = x3 (ix2 (1 : Fin 4) q) + cHalf * x3 (ix2 (3 : Fin 4) q) := by
  unfold k0_pay20
  show k0_pay14 x3 (ix2 (0 : Fin 1) q) + cHalf * k0_pay16 x3 (ix2 (0 : Fin 1) q) = _
  rw [pay14_at, pay16_at]
theorem pay21_at (q : Fin 1600) :
    k0_pay21 x3 (ix2 (0 : Fin 1) q) = x3 (ix2 (2 : Fin 4) q) * x3 (ix2 (3 : Fin 4) q) := by
  unfold k0_pay21
  show k0_pay15 x3 (ix2 (0 : Fin 1) q) * k0_pay16 x3 (ix2 (0 : Fin 1) q) = _
  rw [pay15_at, pay16_at]

/-! ## The L1 cost, the first maximum and the spread corner -/

theorem pay22_at (v34 v35 v36 v37 : FVec Ideal S240x1 .f32) (p : Fin 240) (q : Fin 1600) :
    k0_pay22 v34 v35 v36 v37 x3 (ix2 p q)
      = l1K (v34 (ix2 p (0 : Fin 1))) (v35 (ix2 p (0 : Fin 1))) (v36 (ix2 p (0 : Fin 1))) (v37 (ix2 p (0 : Fin 1)))
          (x3 (ix2 (0 : Fin 4) q)) (x3 (ix2 (1 : Fin 4) q)) (x3 (ix2 (2 : Fin 4) q)) (x3 (ix2 (3 : Fin 4) q)) := by
  unfold k0_pay22 l1K
  simp only [addf_apply, subf_apply, absf_at, Keepdims.broadcastTo_a1_ab_apply, broadcastTo_1b_ab_apply,
    pay13_at, pay14_at, pay15_at, pay16_at]

theorem pay23_at (v40 : FVec Ideal S240x1 .f32) (p : Fin 240) (q : Fin 1600) :
    k0_pay23 v40 x3 (ix2 p q)
      = max (v40 (ix2 p (0 : Fin 1))) (x3 (ix2 (0 : Fin 4) q) - cHalf * x3 (ix2 (2 : Fin 4) q)) := by
  unfold k0_pay23
  simp only [maximumf_apply, Keepdims.broadcastTo_a1_ab_apply, broadcastTo_1b_ab_apply, pay17_at]

theorem pay24_at (v35 v37 : FVec Ideal S240x1 .f32) (c : Ideal .f32) (p : Fin 240) (q : Fin 1600) :
    k0_pay24 v35 v37 c (ix2 p q) = v35 (ix2 p (0 : Fin 1)) - c * v37 (ix2 p (0 : Fin 1)) := by
  unfold k0_pay24
  rw [Keepdims.broadcastTo_a1_ab_apply]
  rfl

/-! ## The combination -/

theorem pay25_at (v31 : FVec Ideal S240x1600 .f32) (v40 v43 v46 v49 v50 : FVec Ideal S240x1 .f32)
    (v59 v62 v65 v68 v69 : FVec Ideal S1x1600 .f32) (v88 v91 v92 : FVec Ideal S240x1600 .f32) (p : Fin 240) (q : Fin 1600)
    (px0 py0 px1 py1 a1 tx0 ty0 tx1 ty1 a2 : EReal)
    (h40 : v40 (ix2 p (0 : Fin 1)) = px0) (h43 : v43 (ix2 p (0 : Fin 1)) = py0) (h46 : v46 (ix2 p (0 : Fin 1)) = px1)
    (h49 : v49 (ix2 p (0 : Fin 1)) = py1) (h50 : v50 (ix2 p (0 : Fin 1)) = a1)
    (h59 : v59 (ix2 (0 : Fin 1) q) = tx0) (h62 : v62 (ix2 (0 : Fin 1) q) = ty0) (h65 : v65 (ix2 (0 : Fin 1) q) = tx1)
    (h68 : v68 (ix2 (0 : Fin 1) q) = ty1) (h69 : v69 (ix2 (0 : Fin 1) q) = a2)
    (h91 : v91 (ix2 p q) = max px0 tx0) (h92 : v92 (ix2 p q) = py0) :
    k0_pay25 v31 v40 v43 v46 v49 v50 v59 v62 v65 v68 v69 v88 v91 v92 (ix2 p q)
      = cellK (v31 (ix2 p q)) (v88 (ix2 p q)) (giouOf px0 py0 px1 py1 tx0 ty0 tx1 ty1 a1 a2) := by
  unfold k0_pay25 cellK giouOf
  simp only [addf_apply, subf_apply, mulf_apply, divf_apply, maximumf_apply, minimumf_apply, broadcast_apply,
    Keepdims.broadcastTo_a1_ab_apply, broadcastTo_1b_ab_apply, h40, h43, h46, h49, h50, h59, h62, h65, h68, h69, h91, h92]
  rfl

/-! ## The class cost -/

variable (x0 : Vec Ideal S240x256 .f32) (x2 : Vec Ideal S256x1600 .bf16)

/-- A product of a 240 × 256 by a 256 × 1600 matrix into the zero accumulator, whatever the operands' formats. -/
theorem matmul_at {φ₁ φ₂ : FTy} (lhs : FVec Ideal S240x256 φ₁) (rhs : FVec Ideal S256x1600 φ₂) (p : Fin 240) (q : Fin 1600) :
    matmul dot_S240x256_S256x1600_S240x1600_1_0_0_1_n_n none lhs rhs (constant S240x1600 .f32 0x00000000#32) (ix2 p q)
      = ∑ k : Fin 256, lhs (ix2 p k) * rhs (ix2 k q) := by
  show FloatOps.matmul (DotDims.plain 240 256 1600) none lhs rhs (constant ⟨2, ![240, 1600]⟩ .f32 0x00000000#32) (ix2 p q) = _
  rw [Ideal.matmul_constant_zero_apply]
  exact Cert.PlainDot.contraction_eq lhs rhs p q

theorem pay1_at (p : Fin 240) (q : Fin 1600) :
    k0_pay1 x0 x2 (ix2 p q) = clsK (fun k => x0 (ix2 p k)) (fun k => x2 (ix2 k q)) := by
  unfold k0_pay1 clsK
  simp only [subf_apply, matmul_at, shapeCast_self]
  rfl

/-! ## The entry -/

/-- The stored value at (p, q): the matching-cost entry of prediction row p and target column q. -/
theorem entry_at (p : Fin 240) (q : Fin 1600) :
    k0_pay25 (k0_pay1 x0 x2) (k0_pay7 x1) (k0_pay8 (k0_pay4 x1) (k0_pay6 x1) (Scalar.ofBits .f32 0x3F000000#32))
        (k0_pay9 (k0_pay3 x1) (k0_pay5 x1)) (k0_pay10 (k0_pay4 x1) (k0_pay6 x1)) (k0_pay11 (k0_pay5 x1) (k0_pay6 x1))
        (k0_pay17 x3) (k0_pay18 x3) (k0_pay19 x3) (k0_pay20 x3) (k0_pay21 x3)
        (k0_pay22 (k0_pay3 x1) (k0_pay4 x1) (k0_pay5 x1) (k0_pay6 x1) x3) (k0_pay23 (k0_pay7 x1) x3)
        (k0_pay24 (k0_pay4 x1) (k0_pay6 x1) (Scalar.ofBits .f32 0x3F000000#32)) (ix2 p q)
      = entryK (fun k => x0 (ix2 p k)) (fun k => x2 (ix2 k q))
          (x1 (ix2 p (0 : Fin 4))) (x1 (ix2 p (1 : Fin 4))) (x1 (ix2 p (2 : Fin 4))) (x1 (ix2 p (3 : Fin 4)))
          (x3 (ix2 (0 : Fin 4) q)) (x3 (ix2 (1 : Fin 4) q)) (x3 (ix2 (2 : Fin 4) q)) (x3 (ix2 (3 : Fin 4) q)) := by
  rw [pay25_at (p := p) (q := q)
    (h40 := pay7_at x1 p)
    (h43 := (pay8_at _ _ _ p).trans (by rw [pay4_at, pay6_at]))
    (h46 := (pay9_at _ _ p).trans (by rw [pay3_at, pay5_at]))
    (h49 := (pay10_at _ _ p).trans (by rw [pay4_at, pay6_at]))
    (h50 := (pay11_at _ _ p).trans (by rw [pay5_at, pay6_at]))
    (h59 := pay17_at x3 q) (h62 := pay18_at x3 q) (h65 := pay19_at x3 q) (h68 := pay20_at x3 q) (h69 := pay21_at x3 q)
    (h91 := (pay23_at x3 _ p q).trans (by rw [pay7_at]))
    (h92 := (pay24_at _ _ _ p q).trans (by rw [pay4_at, pay6_at]))]
  rw [pay1_at, pay22_at, pay3_at, pay4_at, pay5_at, pay6_at]
  rfl

end Cert.KernelIdeal.Cell

end
-- ==== Proof.KernelArray.lean ====
/-
  The kernel's result array.

  The grid has 60 points; point t stores the 240 × 1600 tile of rows 240 t … 240 t + 239 of the cost matrix, computed
  from rows 240 t … of the flattened logits and prediction boxes and from the whole transposed label and target-box
  arrays. The 60 tiles cover the 14400 × 1600 matrix, so after the run it holds, entry by entry, the matching cost of
  prediction n and target j; the program then views it as [16, 900, 1600].
-/
import proofs.«167287_j34170759807565_1_alg».proof.Proof.Gen.KernelIdeal.Frame
import proofs.«167287_j34170759807565_1_alg».proof.Proof.KernelCell
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.Matcher Idealize.ShloMosaic.ValueIdx

/-! ## The cost matrix as one function of four matrices -/

/-- The entry of prediction n and target j: from row n of the logits A0 and of the boxes A1, and column j of the
    transposed labels L and of the transposed target boxes T. -/
def cellAt (A0 : S14400x256.Idx → EReal) (A1 : S14400x4.Idx → EReal) (L : S256x1600.Idx → EReal) (T : S4x1600.Idx → EReal)
    (n : Fin 14400) (j : Fin 1600) : EReal :=
  entryK (fun k => A0 (ix2 n k)) (fun k => L (ix2 k j))
    (A1 (ix2 n (0 : Fin 4))) (A1 (ix2 n (1 : Fin 4))) (A1 (ix2 n (2 : Fin 4))) (A1 (ix2 n (3 : Fin 4)))
    (T (ix2 (0 : Fin 4) j)) (T (ix2 (1 : Fin 4) j)) (T (ix2 (2 : Fin 4) j)) (T (ix2 (3 : Fin 4) j))

/-- The whole cost matrix. -/
def costOf (A0 : S14400x256.Idx → EReal) (A1 : S14400x4.Idx → EReal) (L : S256x1600.Idx → EReal) (T : S4x1600.Idx → EReal) :
    S14400x1600.Idx → EReal :=
  fun i => cellAt A0 A1 L T ⟨(i 0).val, (i 0).isLt⟩ ⟨(i 1).val, (i 1).isLt⟩

theorem costOf_ix2 (A0 : S14400x256.Idx → EReal) (A1 : S14400x4.Idx → EReal) (L : S256x1600.Idx → EReal) (T : S4x1600.Idx → EReal)
    (n : Fin 14400) (j : Fin 1600) : costOf A0 A1 L T (ix2 n j) = cellAt A0 A1 L T n j := rfl

/-! ## Which rows a grid point's blocks hold -/

theorem hz : (![0, 0] : Fin 2 → Nat) = fun _ => 0 := funext fun a => by fin_cases a <;> rfl

/-- The block indices over the grid: the two row-tiled inputs and the output move with the point, the two resident
    inputs stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's tiles is row 240 t + p of the flattened arrays. -/
def row (t : Fin cfg0.N) (p : Fin 240) : Fin 14400 :=
  ⟨240 * t.val + p.val, by have h := t.isLt; have hN : cfg0.N = 60 := N_0; have hp := p.isLt; omega⟩

variable (c : Dev nD)

theorem blk0_read (A : Buf (Elt Ideal) ((c : Thread nD τ).loc main_v0)) (t : Fin cfg0.N) (p : Fin 240) (k : Fin 256) :
    ((cfg0.win 0).blk t).view.read (Elt Ideal) A (ix2 p k) = (A : S14400x256.Idx → EReal) (ix2 (row t p) k) := by
  obtain ⟨e0, e1, -⟩ := idx_facts t
  rw [View.read_apply]
  refine congrArg (A : S14400x256.Idx → EReal) ?_
  funext a; apply Fin.ext
  match a with
  | ⟨0, _⟩ => show win0_0.index t (0 : Fin 2) * 240 + 1 * p.val = 240 * t.val + p.val; rw [e0]; omega
  | ⟨1, _⟩ => show win0_0.index t (1 : Fin 2) * 256 + 1 * k.val = k.val; rw [e1]; omega

theorem blk1_read (A : Buf (Elt Ideal) ((c : Thread nD τ).loc main_v1)) (t : Fin cfg0.N) (p : Fin 240) (k : Fin 4) :
    ((cfg0.win 1).blk t).view.read (Elt Ideal) A (ix2 p k) = (A : S14400x4.Idx → EReal) (ix2 (row t p) k) := by
  obtain ⟨-, -, e0, e1, -⟩ := idx_facts t
  rw [View.read_apply]
  refine congrArg (A : S14400x4.Idx → EReal) ?_
  funext a; apply Fin.ext
  match a with
  | ⟨0, _⟩ => show win0_1.index t (0 : Fin 2) * 240 + 1 * p.val = 240 * t.val + p.val; rw [e0]; omega
  | ⟨1, _⟩ => show win0_1.index t (1 : Fin 2) * 4 + 1 * k.val = k.val; rw [e1]; omega

theorem blk2_read (A : Buf (Elt Ideal) ((c : Thread nD τ).loc main_v5)) (t : Fin cfg0.N) (k : Fin 256) (q : Fin 1600) :
    ((cfg0.win 2).blk t).view.read (Elt Ideal) A (ix2 k q) = (A : S256x1600.Idx → EReal) (ix2 k q) := by
  obtain ⟨-, -, -, -, e0, e1, -⟩ := idx_facts t
  rw [View.read_apply]
  refine congrArg (A : S256x1600.Idx → EReal) ?_
  funext a; apply Fin.ext
  match a with
  | ⟨0, _⟩ => show win0_2.index t (0 : Fin 2) * 256 + 1 * k.val = k.val; rw [e0]; omega
  | ⟨1, _⟩ => show win0_2.index t (1 : Fin 2) * 1600 + 1 * q.val = q.val; rw [e1]; omega

theorem blk3_read (A : Buf (Elt Ideal) ((c : Thread nD τ).loc main_v6)) (t : Fin cfg0.N) (k : Fin 4) (q : Fin 1600) :
    ((cfg0.win 3).blk t).view.read (Elt Ideal) A (ix2 k q) = (A : S4x1600.Idx → EReal) (ix2 k q) := by
  obtain ⟨-, -, -, -, -, -, e0, e1, -⟩ := idx_facts t
  rw [View.read_apply]
  refine congrArg (A : S4x1600.Idx → EReal) ?_
  funext a; apply Fin.ext
  match a with
  | ⟨0, _⟩ => show win0_3.index t (0 : Fin 2) * 4 + 1 * k.val = k.val; rw [e0]; omega
  | ⟨1, _⟩ => show win0_3.index t (1 : Fin 2) * 1600 + 1 * q.val = q.val; rw [e1]; omega

theorem blk4_emb (t : Fin cfg0.N) (p : Fin 240) (q : Fin 1600) :
    ((cfg0.win 4).blk t).view.emb (ix2 p q) = (ix2 (row t p) q : S14400x1600.Idx) := by
  obtain ⟨-, -, -, -, -, -, -, -, e0, e1⟩ := idx_facts t
  funext a; apply Fin.ext
  match a with
  | ⟨0, _⟩ => show win0_4.index t (0 : Fin 2) * 240 + 1 * p.val = 240 * t.val + p.val; rw [e0]; omega
  | ⟨1, _⟩ => show win0_4.index t (1 : Fin 2) * 1600 + 1 * q.val = q.val; rw [e1]; omega

/-! ## What a point writes back, the cover, the array -/

variable (m : (ℓ : Loc nD τ sig) → Buf (Elt Ideal) ℓ) (ρ : Dev nD → PrngReg)

/-- The stored tile at (p, q), for any contents of the four input tiles. -/
theorem out_at (x0 : Vec Ideal S240x256 .f32) (x1 : Vec Ideal S240x4 .f32) (x2 : Vec Ideal S256x1600 .bf16)
    (x3 : Vec Ideal S4x1600 .f32) (p : Fin 240) (q : Fin 1600) :
    out0_4 x0 x1 x2 x3 (ix2 p q)
      = entryK (fun k => x0 (ix2 p k)) (fun k => x2 (ix2 k q))
          (x1 (ix2 p (0 : Fin 4))) (x1 (ix2 p (1 : Fin 4))) (x1 (ix2 p (2 : Fin 4))) (x1 (ix2 p (3 : Fin 4)))
          (x3 (ix2 (0 : Fin 4) q)) (x3 (ix2 (1 : Fin 4) q)) (x3 (ix2 (2 : Fin 4) q)) (x3 (ix2 (3 : Fin 4) q)) := by
  unfold out0_4
  rw [View.canon_unit_zero hz]
  simp only [View.ld_unit_zero (S := S240x256) hz, View.ld_unit_zero (S := S240x4) hz, View.ld_unit_zero (S := S256x1600) hz,
    View.ld_unit_zero (S := S4x1600) hz]
  exact Cell.entry_at x1 x3 x0 x2 p q

theorem blk4_read (G : Buf (Elt Ideal) ((c : Thread nD τ).loc main_v7)) (t : Fin cfg0.N) (p : Fin 240) (q : Fin 1600) :
    ((cfg0.win 4).blk t).view.read (Elt Ideal) G (ix2 p q) = (G : S14400x1600.Idx → EReal) (ix2 (row t p) q) := by
  rw [View.read_apply]
  exact congrArg (G : S14400x1600.Idx → EReal) (blk4_emb t p q)

/-- Point t writes back tile t of the cost matrix of the arrays as the region finds them. -/
theorem flushed_eq (t : Fin cfg0.N) :
    (dats m 0 c).flushed 4 t = ((cfg0.win 4).blk t).view.read (Elt Ideal)
      (costOf (V m c main_v0) (V m c main_v1) (V m c main_v5) (V m c main_v6)) := by
  show (cfg0.win 4).cut (grid0.coords t) ((dats m 0 c).after 4 t) = _
  rw [after0_4]
  funext j
  obtain ⟨p, q, rfl⟩ : ∃ (p : Fin 240) (q : Fin 1600), j = ix2 p q := ⟨j 0, j 1, eq_ix2 j⟩
  show out0_4 (iblk m c 0 t) (iblk m c 1 t) (iblk m c 2 t) (iblk m c 3 t) (ix2 p q) = _
  refine (out_at (iblk m c 0 t) (iblk m c 1 t) (iblk m c 2 t) (iblk m c 3 t) p q).trans ?_
  refine Eq.trans ?_ (blk4_read c (costOf (V m c main_v0) (V m c main_v1) (V m c main_v5) (V m c main_v6)) t p q).symm
  have e0 : ∀ k : Fin 256, (iblk m c 0 t : Vec Ideal S240x256 .f32) (ix2 p k)
      = (V m c main_v0 : S14400x256.Idx → EReal) (ix2 (row t p) k) := fun k => blk0_read c (V m c main_v0) t p k
  have e1 : ∀ k : Fin 4, (iblk m c 1 t : Vec Ideal S240x4 .f32) (ix2 p k)
      = (V m c main_v1 : S14400x4.Idx → EReal) (ix2 (row t p) k) := fun k => blk1_read c (V m c main_v1) t p k
  have e2 : ∀ k : Fin 256, (iblk m c 2 t : Vec Ideal S256x1600 .bf16) (ix2 k q)
      = (V m c main_v5 : S256x1600.Idx → EReal) (ix2 k q) := fun k => blk2_read c (V m c main_v5) t k q
  have e3 : ∀ k : Fin 4, (iblk m c 3 t : Vec Ideal S4x1600 .f32) (ix2 k q)
      = (V m c main_v6 : S4x1600.Idx → EReal) (ix2 k q) := fun k => blk3_read c (V m c main_v6) t k q
  rw [costOf_ix2]
  unfold cellAt
  simp only [e0, e1, e2, e3]

theorem mem_blk (t : Fin cfg0.N) (i : S14400x1600.Idx) :
    i ∈ ((cfg0.win 4).blk t).view.set ↔ ∀ a : Fin 2, win0_4.index t a * S240x1600.size a ≤ (i a).val
      ∧ (i a).val < win0_4.index t a * S240x1600.size a + S240x1600.size a := by
  show i ∈ ((View.whole main_v7).slice (win0_4.rect t)).set ↔ _
  rw [View.set_slice_whole, Rect.mem_set_unit]
  exact Iff.rfl

/-- Row r of the matrix is in the tile of point r / 240. -/
theorem cover (i : S14400x1600.Idx) :
    ∃ t : Fin cfg0.N, (cfg0.win 4).flush t = true ∧ i ∈ ((cfg0.win 4).blk t).view.set := by
  have hN : cfg0.N = 60 := N_0
  have h0 : (i 0).val < 14400 := (i 0).isLt
  have h1 : (i 1).val < 1600 := (i 1).isLt
  have ht : (i 0).val / 240 < cfg0.N := by rw [hN]; omega
  refine ⟨⟨(i 0).val / 240, ht⟩, flush0_4 _, ?_⟩
  rw [mem_blk]
  obtain ⟨-, -, -, -, -, -, -, -, e0, e1⟩ := idx_facts ⟨(i 0).val / 240, ht⟩
  intro a
  match a with
  | ⟨0, _⟩ =>
    show win0_4.index ⟨(i 0).val / 240, ht⟩ (0 : Fin 2) * 240 ≤ (i 0).val
      ∧ (i 0).val < win0_4.index ⟨(i 0).val / 240, ht⟩ (0 : Fin 2) * 240 + 240
    rw [e0]; show (i 0).val / 240 * 240 ≤ (i 0).val ∧ (i 0).val < (i 0).val / 240 * 240 + 240; omega
  | ⟨1, _⟩ =>
    show win0_4.index ⟨(i 0).val / 240, ht⟩ (1 : Fin 2) * 1600 ≤ (i 1).val
      ∧ (i 1).val < win0_4.index ⟨(i 0).val / 240, ht⟩ (1 : Fin 2) * 1600 + 1600
    rw [e1]; omega

/-- After the run the output array is the cost matrix of the arrays as the region finds them. -/
theorem final : (dats m 0 c).arrAt 4 cfg0.N = costOf (V m c main_v0) (V m c main_v1) (V m c main_v5) (V m c main_v6) :=
  (dats m 0 c).arrAt_eq_of_cover 4 _ (fun t _ => flushed_eq c m t) cover

/-! ## The host operations around the region -/

/-- The flattened logits. -/
abbrev A0 : S14400x256.Idx → EReal := shapeCast _ (m ((c : Thread nD τ).loc main_arg0)) shapeCasts_S16x900x256_S14400x256
/-- The flattened prediction boxes. -/
abbrev A1 : S14400x4.Idx → EReal := shapeCast _ (m ((c : Thread nD τ).loc main_arg1)) shapeCasts_S16x900x4_S14400x4
/-- The flattened labels. -/
abbrev A3 : S1600x256.Idx → EReal := shapeCast _ (m ((c : Thread nD τ).loc main_arg3)) shapeCasts_S16x100x256_S1600x256
/-- The flattened target boxes. -/
abbrev A2 : S1600x4.Idx → EReal := shapeCast _ (m ((c : Thread nD τ).loc main_arg2)) shapeCasts_S16x100x4_S1600x4

theorem V_v0 : (V m c main_v0 : S14400x256.Idx → EReal) = A0 c m := by
  show StableHlo.after hostOps0 (fun b => m (c, b)) (Proc.devRef .tc main_v0) = _
  after_results
  rfl
theorem V_v1 : (V m c main_v1 : S14400x4.Idx → EReal) = A1 c m := by
  show StableHlo.after hostOps0 (fun b => m (c, b)) (Proc.devRef .tc main_v1) = _
  after_results
  rfl
theorem V_v5 : (V m c main_v5 : S256x1600.Idx → EReal)
    = truncf (F := Ideal) .bf16 (transpose S256x1600 [1, 0] (A3 c m) transposes_S1600x256_S256x1600_1_0) bitsLt_bf16_f32 := by
  show StableHlo.after hostOps0 (fun b => m (c, b)) (Proc.devRef .tc main_v5) = _
  after_results
  rfl
theorem V_v6 : (V m c main_v6 : S4x1600.Idx → EReal)
    = transpose S4x1600 [1, 0] (A2 c m) transposes_S1600x4_S4x1600_1_0 := by
  show StableHlo.after hostOps0 (fun b => m (c, b)) (Proc.devRef .tc main_v6) = _
  after_results
  rfl

/-- The cost matrix from the program's four arguments: the labels and target boxes enter transposed. -/
def costM : S14400x1600.Idx → EReal :=
  costOf (A0 c m) (A1 c m)
    (truncf (F := Ideal) .bf16 (transpose S256x1600 [1, 0] (A3 c m) transposes_S1600x256_S256x1600_1_0) bitsLt_bf16_f32)
    (transpose S4x1600 [1, 0] (A2 c m) transposes_S1600x4_S4x1600_1_0)

theorem final' : (dats m 0 c).arrAt 4 cfg0.N = costM c m := by
  rw [final, V_v0, V_v1, V_v5, V_v6]
  rfl

/-- The program's result: the cost matrix viewed as [16, 900, 1600]. -/
theorem tail_eq : Pipeline.afterTail₀ cfgs (dats m) 0 (V0 m) [hostOps1] c main_v8
    = shapeCast _ (costM c m) shapeCasts_S14400x1600_S16x900x1600 := by
  unfold Pipeline.afterTail₀
  show StableHlo.after hostOps1 _ (Proc.devRef .tc main_v8) = _
  after_results
  rw [(Pipeline.withArrays_arr spec0 launch0.win.arr_inj c _ _ 4).trans (final' c m)]
  rfl

/-- The run, read: the result at the cost matrix viewed as [16, 900, 1600], the arguments unchanged. -/
theorem run : θ_run defs (onTc (τ := τ) (main (F := Ideal))) ⟨m, fun _ => 0, ρ⟩ fun r => ∀ c : Dev nD,
      r.2.mem ((c.tc : Thread nD τ).loc main_v8) = shapeCast _ (costM c m) shapeCasts_S14400x1600_S16x900x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq c m),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Arr

end
-- ==== Proof.LibConcat4.lean ====
/-
  Four columns joined side by side, read at an entry.

  Joining four [N, 1] columns along axis 1 gives an [N, 4] array whose entry (n, k) is entry (n, 0) of column k: the
  pieces before column k have total width k, and every other coordinate is kept. Stated for any extent N and any
  element type.
-/
import Idealize.ShloMosaic.Lib.Pipeline.Value
import Idealize.ShloMosaic.Lib.ValueIdx

namespace Concat4

open Idealize.ShloMosaic Idealize.ShloMosaic.ValueIdx

variable {α : Type} {N : ℕ}

/-- Entry (n, k) of the join of four [N, 1] columns is entry (n, 0) of column k, for k = 0, 1, 2, 3. -/
theorem columns_at (u0 u1 u2 u3 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩] :
      List ((s : Shape) × (s.Idx → α))).map (·.1)) ⟨2, ![N, 4]⟩ (1 : Fin 2)) (n : Fin N) :
    concatenate ⟨2, ![N, 4]⟩ (1 : Fin 2) [⟨⟨2, ![N, 1]⟩, u0⟩, ⟨⟨2, ![N, 1]⟩, u1⟩, ⟨⟨2, ![N, 1]⟩, u2⟩, ⟨⟨2, ![N, 1]⟩, u3⟩] h
        (ix2 n (0 : Fin 4)) = u0 (ix2 n (0 : Fin 1))
    ∧ concatenate ⟨2, ![N, 4]⟩ (1 : Fin 2) [⟨⟨2, ![N, 1]⟩, u0⟩, ⟨⟨2, ![N, 1]⟩, u1⟩, ⟨⟨2, ![N, 1]⟩, u2⟩, ⟨⟨2, ![N, 1]⟩, u3⟩] h
        (ix2 n (1 : Fin 4)) = u1 (ix2 n (0 : Fin 1))
    ∧ concatenate ⟨2, ![N, 4]⟩ (1 : Fin 2) [⟨⟨2, ![N, 1]⟩, u0⟩, ⟨⟨2, ![N, 1]⟩, u1⟩, ⟨⟨2, ![N, 1]⟩, u2⟩, ⟨⟨2, ![N, 1]⟩, u3⟩] h
        (ix2 n (2 : Fin 4)) = u2 (ix2 n (0 : Fin 1))
    ∧ concatenate ⟨2, ![N, 4]⟩ (1 : Fin 2) [⟨⟨2, ![N, 1]⟩, u0⟩, ⟨⟨2, ![N, 1]⟩, u1⟩, ⟨⟨2, ![N, 1]⟩, u2⟩, ⟨⟨2, ![N, 1]⟩, u3⟩] h
        (ix2 n (3 : Fin 4)) = u3 (ix2 n (0 : Fin 1)) := by
  have hi : ∀ (k : Fin 4) (b : Fin (⟨2, ![N, 1]⟩ : Shape).rank), b.cast (rfl : (⟨2, ![N, 1]⟩ : Shape).rank = (⟨2, ![N, 4]⟩ : Shape).rank) ≠ (1 : Fin 2) →
      ((ix2 n (0 : Fin 1) : (⟨2, ![N, 1]⟩ : Shape).Idx) b).val = ((ix2 n k : (⟨2, ![N, 4]⟩ : Shape).Idx) (b.cast rfl)).val := by
    intro k b hb
    match b with
    | ⟨0, _⟩ => rfl
    | ⟨1, _⟩ => exact absurd rfl hb
  refine ⟨?_, ?_, ?_, ?_⟩
  · exact concatenate_apply_piece (1 : Fin 2) _ h (ix2 n (0 : Fin 4)) 0 (by show (0 : ℕ) < 4; omega) ⟨2, ![N, 1]⟩ u0 rfl rfl 0 rfl
      (ix2 n (0 : Fin 1)) (hi 0) rfl
  · exact concatenate_apply_piece (1 : Fin 2) _ h (ix2 n (1 : Fin 4)) 1 (by show (1 : ℕ) < 4; omega) ⟨2, ![N, 1]⟩ u1 rfl rfl 1 rfl
      (ix2 n (0 : Fin 1)) (hi 1) rfl
  · exact concatenate_apply_piece (1 : Fin 2) _ h (ix2 n (2 : Fin 4)) 2 (by show (2 : ℕ) < 4; omega) ⟨2, ![N, 1]⟩ u2 rfl rfl 2 rfl
      (ix2 n (0 : Fin 1)) (hi 2) rfl
  · exact concatenate_apply_piece (1 : Fin 2) _ h (ix2 n (3 : Fin 4)) 3 (by show (3 : ℕ) < 4; omega) ⟨2, ![N, 1]⟩ u3 rfl rfl 3 rfl
      (ix2 n (0 : Fin 1)) (hi 3) rfl

end Concat4
-- ==== Proof.IdxTac.lean ====
/-
  A tactic for equalities between array indices.

  Two indices of a literal shape are equal when their coordinates are; each coordinate here is a numeral, a
  coordinate of another index, or such a value shifted by a numeral or divided by 1.
-/
import Mathlib.Tactic

/-- Closes `i = j` for two indices of a shape of literal rank, coordinate by coordinate. -/
macro "idx_ext" : tactic =>
  `(tactic| (funext a; apply Fin.ext; fin_cases a <;> first | rfl | (dsimp only; omega) | (simp; omega) | simp))
-- ==== Proof.RefBoxes.lean ====
/-
  The reference's boxes: coordinates, corners, areas and the L1 cost.

  The reference slices the flattened [N, 4] box arrays into their four coordinate columns, forms the corners
  cx ∓ ½ w, cy ∓ ½ h, and joins the four corner columns side by side into a new [N, 4] array; the areas are then
  (x₁ − x₀)(y₁ − y₀) of that array's columns. The L1 cost of a pair is the sum over the four coordinates of the
  absolute differences, started from 0.
-/
import proofs.«167287_j34170759807565_1_alg».proof.Proof.Gen.ReferenceIdeal.Read
import proofs.«167287_j34170759807565_1_alg».proof.Proof.Spec
import proofs.«167287_j34170759807565_1_alg».proof.Proof.LibConcat4
import proofs.«167287_j34170759807565_1_alg».proof.Proof.IdxTac
import Idealize.ShloMosaic.Lib.Pipeline.Value
import Idealize.ShloMosaic.Lib.ValueIdx

noncomputable section

namespace Cert.ReferenceIdeal.Ref

open Cert.ReferenceIdeal Cert.ReferenceIdeal.Gen Cert.ReferenceIdeal.Read Cert.Matcher
open Idealize.ShloMosaic Idealize.ShloMosaic.ValueIdx
open scoped BigOperators

variable (x1 : (⟨S16x900x4, .f32⟩ : BufTy).Contents (Elt Ideal)) (x2 : (⟨S16x100x4, .f32⟩ : BufTy).Contents (Elt Ideal))

/-- Coordinate k of prediction n's box (cx, cy, w, h). -/
abbrev P (n : Fin 14400) (k : Fin 4) : EReal := val_main_v1 (F := Ideal) x1 (ix2 n k)
/-- Coordinate k of target j's box. -/
abbrev Q (j : Fin 1600) (k : Fin 4) : EReal := val_main_v3 (F := Ideal) x2 (ix2 j k)

/-! ## The coordinate columns -/

theorem v45_at (n : Fin 14400) : val_main_v45 (F := Ideal) x1 (ix1 n) = P x1 n 0 := by
  rw [val_main_v45_apply, val_main_v44_apply]
  exact congrArg (val_main_v1 (F := Ideal) x1) (by idx_ext)

theorem v47_at (n : Fin 14400) : val_main_v47 (F := Ideal) x1 (ix1 n) = P x1 n 1 := by
  rw [val_main_v47_apply, val_main_v46_apply]
  exact congrArg (val_main_v1 (F := Ideal) x1) (by idx_ext)

theorem v49_at (n : Fin 14400) : val_main_v49 (F := Ideal) x1 (ix1 n) = P x1 n 2 := by
  rw [val_main_v49_apply, val_main_v48_apply]
  exact congrArg (val_main_v1 (F := Ideal) x1) (by idx_ext)

theorem v51_at (n : Fin 14400) : val_main_v51 (F := Ideal) x1 (ix1 n) = P x1 n 3 := by
  rw [val_main_v51_apply, val_main_v50_apply]
  exact congrArg (val_main_v1 (F := Ideal) x1) (by idx_ext)

theorem v70_at (n : Fin 1600) : val_main_v70 (F := Ideal) x2 (ix1 n) = Q x2 n 0 := by
  rw [val_main_v70_apply, val_main_v69_apply]
  exact congrArg (val_main_v3 (F := Ideal) x2) (by idx_ext)

theorem v72_at (n : Fin 1600) : val_main_v72 (F := Ideal) x2 (ix1 n) = Q x2 n 1 := by
  rw [val_main_v72_apply, val_main_v71_apply]
  exact congrArg (val_main_v3 (F := Ideal) x2) (by idx_ext)

theorem v74_at (n : Fin 1600) : val_main_v74 (F := Ideal) x2 (ix1 n) = Q x2 n 2 := by
  rw [val_main_v74_apply, val_main_v73_apply]
  exact congrArg (val_main_v3 (F := Ideal) x2) (by idx_ext)

theorem v76_at (n : Fin 1600) : val_main_v76 (F := Ideal) x2 (ix1 n) = Q x2 n 3 := by
  rw [val_main_v76_apply, val_main_v75_apply]
  exact congrArg (val_main_v3 (F := Ideal) x2) (by idx_ext)

/-! ## The corners -/

theorem v54_at (n : Fin 14400) : val_main_v54 (F := Ideal) x1 (ix1 n) = P x1 n 0 - cHalf * P x1 n 2 := by
  rw [val_main_v54_apply, val_main_v53_apply, val_main_v52_apply, val_main_cst_11_apply, v45_at, v49_at]; rfl
theorem v57_at (n : Fin 14400) : val_main_v57 (F := Ideal) x1 (ix1 n) = P x1 n 1 - cHalf * P x1 n 3 := by
  rw [val_main_v57_apply, val_main_v56_apply, val_main_v55_apply, val_main_cst_12_apply, v47_at, v51_at]; rfl
theorem v60_at (n : Fin 14400) : val_main_v60 (F := Ideal) x1 (ix1 n) = P x1 n 0 + cHalf * P x1 n 2 := by
  rw [val_main_v60_apply, val_main_v59_apply, val_main_v58_apply, val_main_cst_13_apply, v45_at, v49_at]; rfl
theorem v63_at (n : Fin 14400) : val_main_v63 (F := Ideal) x1 (ix1 n) = P x1 n 1 + cHalf * P x1 n 3 := by
  rw [val_main_v63_apply, val_main_v62_apply, val_main_v61_apply, val_main_cst_14_apply, v47_at, v51_at]; rfl

theorem v79_at (j : Fin 1600) : val_main_v79 (F := Ideal) x2 (ix1 j) = Q x2 j 0 - cHalf * Q x2 j 2 := by
  rw [val_main_v79_apply, val_main_v78_apply, val_main_v77_apply, val_main_cst_15_apply, v70_at, v74_at]; rfl
theorem v82_at (j : Fin 1600) : val_main_v82 (F := Ideal) x2 (ix1 j) = Q x2 j 1 - cHalf * Q x2 j 3 := by
  rw [val_main_v82_apply, val_main_v81_apply, val_main_v80_apply, val_main_cst_16_apply, v72_at, v76_at]; rfl
theorem v85_at (j : Fin 1600) : val_main_v85 (F := Ideal) x2 (ix1 j) = Q x2 j 0 + cHalf * Q x2 j 2 := by
  rw [val_main_v85_apply, val_main_v84_apply, val_main_v83_apply, val_main_cst_17_apply, v70_at, v74_at]; rfl
theorem v88_at (j : Fin 1600) : val_main_v88 (F := Ideal) x2 (ix1 j) = Q x2 j 1 + cHalf * Q x2 j 3 := by
  rw [val_main_v88_apply, val_main_v87_apply, val_main_v86_apply, val_main_cst_18_apply, v72_at, v76_at]; rfl

/-- The corner array of the predictions: columns x₀, y₀, x₁, y₁. -/
theorem v68_at (n : Fin 14400) :
    val_main_v68 (F := Ideal) x1 (ix2 n (0 : Fin 4)) = P x1 n 0 - cHalf * P x1 n 2
    ∧ val_main_v68 (F := Ideal) x1 (ix2 n (1 : Fin 4)) = P x1 n 1 - cHalf * P x1 n 3
    ∧ val_main_v68 (F := Ideal) x1 (ix2 n (2 : Fin 4)) = P x1 n 0 + cHalf * P x1 n 2
    ∧ val_main_v68 (F := Ideal) x1 (ix2 n (3 : Fin 4)) = P x1 n 1 + cHalf * P x1 n 3 := by
  obtain ⟨h0, h1, h2, h3⟩ := Concat4.columns_at (val_main_v64 (F := Ideal) x1) (val_main_v65 (F := Ideal) x1)
    (val_main_v66 (F := Ideal) x1) (val_main_v67 (F := Ideal) x1) concatenates_S14400x1_S14400x1_S14400x1_S14400x1_S14400x4_d1 n
  have e : idx_main_v64 (ix2 n (0 : Fin 1)) = ix1 n := (by idx_ext)
  refine ⟨h0.trans ?_, h1.trans ?_, h2.trans ?_, h3.trans ?_⟩
  · rw [val_main_v64_apply]; exact (congrArg (val_main_v54 (F := Ideal) x1) e).trans (v54_at x1 n)
  · rw [val_main_v65_apply]; exact (congrArg (val_main_v57 (F := Ideal) x1) e).trans (v57_at x1 n)
  · rw [val_main_v66_apply]; exact (congrArg (val_main_v60 (F := Ideal) x1) e).trans (v60_at x1 n)
  · rw [val_main_v67_apply]; exact (congrArg (val_main_v63 (F := Ideal) x1) e).trans (v63_at x1 n)

/-- The corner array of the targets. -/
theorem v93_at (j : Fin 1600) :
    val_main_v93 (F := Ideal) x2 (ix2 j (0 : Fin 4)) = Q x2 j 0 - cHalf * Q x2 j 2
    ∧ val_main_v93 (F := Ideal) x2 (ix2 j (1 : Fin 4)) = Q x2 j 1 - cHalf * Q x2 j 3
    ∧ val_main_v93 (F := Ideal) x2 (ix2 j (2 : Fin 4)) = Q x2 j 0 + cHalf * Q x2 j 2
    ∧ val_main_v93 (F := Ideal) x2 (ix2 j (3 : Fin 4)) = Q x2 j 1 + cHalf * Q x2 j 3 := by
  obtain ⟨h0, h1, h2, h3⟩ := Concat4.columns_at (val_main_v89 (F := Ideal) x2) (val_main_v90 (F := Ideal) x2)
    (val_main_v91 (F := Ideal) x2) (val_main_v92 (F := Ideal) x2) concatenates_S1600x1_S1600x1_S1600x1_S1600x1_S1600x4_d1 j
  have e : idx_main_v89 (ix2 j (0 : Fin 1)) = ix1 j := (by idx_ext)
  refine ⟨h0.trans ?_, h1.trans ?_, h2.trans ?_, h3.trans ?_⟩
  · rw [val_main_v89_apply]; exact (congrArg (val_main_v79 (F := Ideal) x2) e).trans (v79_at x2 j)
  · rw [val_main_v90_apply]; exact (congrArg (val_main_v82 (F := Ideal) x2) e).trans (v82_at x2 j)
  · rw [val_main_v91_apply]; exact (congrArg (val_main_v85 (F := Ideal) x2) e).trans (v85_at x2 j)
  · rw [val_main_v92_apply]; exact (congrArg (val_main_v88 (F := Ideal) x2) e).trans (v88_at x2 j)

/-! ## The areas -/

theorem v104_at (n : Fin 14400) : val_main_v104 (F := Ideal) x1 (ix1 n)
    = (val_main_v68 (F := Ideal) x1 (ix2 n (2 : Fin 4)) - val_main_v68 (F := Ideal) x1 (ix2 n (0 : Fin 4)))
      * (val_main_v68 (F := Ideal) x1 (ix2 n (3 : Fin 4)) - val_main_v68 (F := Ideal) x1 (ix2 n (1 : Fin 4))) := by
  rw [val_main_v104_apply, val_main_v98_apply, val_main_v103_apply, val_main_v95_apply, val_main_v94_apply,
    val_main_v97_apply, val_main_v96_apply, val_main_v100_apply, val_main_v99_apply, val_main_v102_apply, val_main_v101_apply]
  rw [show idx_main_v94 (idx_main_v95 (ix1 n)) = ix2 n (2 : Fin 4) from (by idx_ext),
    show idx_main_v96 (idx_main_v97 (ix1 n)) = ix2 n (0 : Fin 4) from (by idx_ext),
    show idx_main_v99 (idx_main_v100 (ix1 n)) = ix2 n (3 : Fin 4) from (by idx_ext),
    show idx_main_v101 (idx_main_v102 (ix1 n)) = ix2 n (1 : Fin 4) from (by idx_ext)]
  rfl

theorem v115_at (j : Fin 1600) : val_main_v115 (F := Ideal) x2 (ix1 j)
    = (val_main_v93 (F := Ideal) x2 (ix2 j (2 : Fin 4)) - val_main_v93 (F := Ideal) x2 (ix2 j (0 : Fin 4)))
      * (val_main_v93 (F := Ideal) x2 (ix2 j (3 : Fin 4)) - val_main_v93 (F := Ideal) x2 (ix2 j (1 : Fin 4))) := by
  rw [val_main_v115_apply, val_main_v109_apply, val_main_v114_apply, val_main_v106_apply, val_main_v105_apply,
    val_main_v108_apply, val_main_v107_apply, val_main_v111_apply, val_main_v110_apply, val_main_v113_apply, val_main_v112_apply]
  rw [show idx_main_v105 (idx_main_v106 (ix1 j)) = ix2 j (2 : Fin 4) from (by idx_ext),
    show idx_main_v107 (idx_main_v108 (ix1 j)) = ix2 j (0 : Fin 4) from (by idx_ext),
    show idx_main_v110 (idx_main_v111 (ix1 j)) = ix2 j (3 : Fin 4) from (by idx_ext),
    show idx_main_v112 (idx_main_v113 (ix1 j)) = ix2 j (1 : Fin 4) from (by idx_ext)]
  rfl

/-! ## The L1 cost -/

theorem v42_at (n : Fin 14400) (j : Fin 1600) (k : Fin 4) : val_main_v42 (F := Ideal) x1 x2 (ix3 n j k)
    = max (P x1 n k - Q x2 j k) (-(P x1 n k - Q x2 j k)) := by
  rw [val_main_v42_apply, val_main_v41_apply, val_main_v39_apply, val_main_v37_apply, val_main_v40_apply, val_main_v38_apply]
  rw [show idx_main_v37 (idx_main_v39 (ix3 n j k)) = ix2 n k from (by idx_ext),
    show idx_main_v38 (idx_main_v40 (ix3 n j k)) = ix2 j k from (by idx_ext)]
  rfl

theorem v43_at (n : Fin 14400) (j : Fin 1600) : val_main_v43 (F := Ideal) x1 x2 (ix2 n j)
    = c0 + l1K (P x1 n 0) (P x1 n 1) (P x1 n 2) (P x1 n 3) (Q x2 j 0) (Q x2 j 1) (Q x2 j 2) (Q x2 j 3) := by
  rw [val_main_v43_apply, val_main_cst_10_apply]
  have e : ∀ k : Fin 4, idx_main_v43 (ix2 n j) k = ix3 n j k := fun k => (by idx_ext)
  simp only [e, v42_at]
  rw [Fin.sum_univ_four]
  rfl

end Cert.ReferenceIdeal.Ref

end
-- ==== Proof.RefClass.lean ====
/-
  The reference's class cost at one entry.

  The reference forms the two focal terms for every logit of the flattened [14400, 256] array, then contracts each
  with the flattened labels (and with 1 − labels) over the 256 classes. Read at prediction n and target j this is
  the class cost of row n of the logits against row j of the labels.
-/
import proofs.«167287_j34170759807565_1_alg».proof.Proof.Gen.ReferenceIdeal.Read
import proofs.«167287_j34170759807565_1_alg».proof.Proof.Spec
import proofs.«167287_j34170759807565_1_alg».proof.Proof.IdxTac
import Idealize.ShloMosaic.Lib.Pipeline.Value
import Idealize.ShloMosaic.Lib.ValueIdx

noncomputable section

namespace Cert.ReferenceIdeal.Ref

open Cert.ReferenceIdeal Cert.ReferenceIdeal.Gen Cert.ReferenceIdeal.Read Cert.Matcher
open Idealize.ShloMosaic Idealize.ShloMosaic.ValueIdx
open scoped BigOperators

variable (x0 : (⟨S16x900x256, .f32⟩ : BufTy).Contents (Elt Ideal)) (x3 : (⟨S16x100x256, .f32⟩ : BufTy).Contents (Elt Ideal))

/-- The positive-label focal term of one logit. -/
theorem pos_at (i : S14400x256.Idx) : val_main_v31 (F := Ideal) x0 i = posR (val_main_v0 (F := Ideal) x0 i) := by
  simp only [val_main_v31_apply, val_main_v26_apply, val_main_v25_apply, val_main_cst_7_apply, val_main_v24_apply,
    val_main_v22_apply, val_main_v21_apply, val_main_cst_5_apply, val_main_v23_apply, val_main_cst_6_apply,
    val_main_v30_apply, val_main_v29_apply, val_main_v28_apply, val_main_v27_apply, val_main_cst_8_apply,
    val_main_v9_apply, val_main_v8_apply, val_main_cst_0_apply, val_main_v7_apply, val_main_v6_apply, val_main_cst_apply,
    val_main_v5_apply, val_main_v4_apply]
  rfl

/-- The negative-label focal term of one logit. -/
theorem neg_at (i : S14400x256.Idx) : val_main_v20 (F := Ideal) x0 i = negR (val_main_v0 (F := Ideal) x0 i) := by
  simp only [val_main_v20_apply, val_main_v13_apply, val_main_v12_apply, val_main_cst_2_apply, val_main_v11_apply,
    val_main_v10_apply, val_main_cst_1_apply, val_main_v19_apply, val_main_v18_apply, val_main_v17_apply,
    val_main_v15_apply, val_main_v14_apply, val_main_cst_3_apply, val_main_v16_apply, val_main_cst_4_apply,
    val_main_v9_apply, val_main_v8_apply, val_main_cst_0_apply, val_main_v7_apply, val_main_v6_apply, val_main_cst_apply,
    val_main_v5_apply, val_main_v4_apply]
  rfl

/-- The class cost of prediction n and target j. -/
theorem cls_at (n : Fin 14400) (j : Fin 1600) :
    val_main_v36 (F := Ideal) x0 x3 (ix2 n j)
      = clsR (fun k => val_main_v0 (F := Ideal) x0 (ix2 n k)) (fun k => val_main_v2 (F := Ideal) x3 (ix2 j k)) := by
  rw [val_main_v36_apply, val_main_v32_apply, val_main_v35_apply]
  unfold clsR
  show (∑ k : Fin 256, _) - (∑ k : Fin 256, _) = _
  congr 1

end Cert.ReferenceIdeal.Ref

end
-- ==== Proof.RefGiou.lean ====
/-
  The reference's GIoU and the combination of the three costs, at one entry.

  From the two corner arrays the reference takes, pair by pair and coordinate by coordinate, the larger of the lower
  corners and the smaller of the upper corners (the intersection), clips their difference at 0 and multiplies the
  two extents; likewise the smaller of the lower and the larger of the upper corners (the hull). With the two areas
  this gives inter / union − (hull − union) / hull. The entry is 5 · L1 + 1 · class + 2 · (−GIoU).
-/
import proofs.«167287_j34170759807565_1_alg».proof.Proof.Gen.ReferenceIdeal.Read
import proofs.«167287_j34170759807565_1_alg».proof.Proof.Spec
import proofs.«167287_j34170759807565_1_alg».proof.Proof.RefBoxes
import proofs.«167287_j34170759807565_1_alg».proof.Proof.RefClass
import proofs.«167287_j34170759807565_1_alg».proof.Proof.IdxTac
import Idealize.ShloMosaic.Lib.Pipeline.Value
import Idealize.ShloMosaic.Lib.ValueIdx

noncomputable section

namespace Cert.ReferenceIdeal.Ref

open Cert.ReferenceIdeal Cert.ReferenceIdeal.Gen Cert.ReferenceIdeal.Read Cert.Matcher
open Idealize.ShloMosaic Idealize.ShloMosaic.ValueIdx
open scoped BigOperators

variable (x0 : (⟨S16x900x256, .f32⟩ : BufTy).Contents (Elt Ideal)) (x1 : (⟨S16x900x4, .f32⟩ : BufTy).Contents (Elt Ideal))
  (x2 : (⟨S16x100x4, .f32⟩ : BufTy).Contents (Elt Ideal)) (x3 : (⟨S16x100x256, .f32⟩ : BufTy).Contents (Elt Ideal))

/-- Corner k of prediction n (x₀, y₀, x₁, y₁). -/
abbrev C (n : Fin 14400) (k : Fin 4) : EReal := val_main_v68 (F := Ideal) x1 (ix2 n k)
/-- Corner k of target j. -/
abbrev D (j : Fin 1600) (k : Fin 4) : EReal := val_main_v93 (F := Ideal) x2 (ix2 j k)

/-! ## Entry (n, j) of a [14400, 1600] array cut out of a [14400, 1600, 2] array at its last coordinate -/

theorem sq0 (n : Fin 14400) (j : Fin 1600) : idx_main_v132 (idx_main_v133 (ix2 n j)) = ix3 n j (0 : Fin 2) := by
  funext a; apply Fin.ext
  have hn := n.isLt
  have hj := j.isLt
  match a with
  | ⟨0, _⟩ => show (n.val * 1600 + j.val) / 1600 = n.val; omega
  | ⟨1, _⟩ => show (n.val * 1600 + j.val) / 1 % 1600 = j.val; omega
  | ⟨2, _⟩ => rfl

theorem sq1 (n : Fin 14400) (j : Fin 1600) : idx_main_v134 (idx_main_v135 (ix2 n j)) = ix3 n j (1 : Fin 2) := by
  funext a; apply Fin.ext
  have hn := n.isLt
  have hj := j.isLt
  match a with
  | ⟨0, _⟩ => show (n.val * 1600 + j.val) / 1600 = n.val; omega
  | ⟨1, _⟩ => show (n.val * 1600 + j.val) / 1 % 1600 = j.val; omega
  | ⟨2, _⟩ => rfl

theorem sr0 (n : Fin 14400) (j : Fin 1600) : idx_main_v160 (idx_main_v161 (ix2 n j)) = ix3 n j (0 : Fin 2) := by
  funext a; apply Fin.ext
  have hn := n.isLt
  have hj := j.isLt
  match a with
  | ⟨0, _⟩ => show (n.val * 1600 + j.val) / 1600 = n.val; omega
  | ⟨1, _⟩ => show (n.val * 1600 + j.val) / 1 % 1600 = j.val; omega
  | ⟨2, _⟩ => rfl

theorem sr1 (n : Fin 14400) (j : Fin 1600) : idx_main_v162 (idx_main_v163 (ix2 n j)) = ix3 n j (1 : Fin 2) := by
  funext a; apply Fin.ext
  have hn := n.isLt
  have hj := j.isLt
  match a with
  | ⟨0, _⟩ => show (n.val * 1600 + j.val) / 1600 = n.val; omega
  | ⟨1, _⟩ => show (n.val * 1600 + j.val) / 1 % 1600 = j.val; omega
  | ⟨2, _⟩ => rfl

/-- The intersection's area. -/
theorem v136_at (n : Fin 14400) (j : Fin 1600) : val_main_v136 (F := Ideal) x1 x2 (ix2 n j)
    = max c0 (min (C x1 n 2) (D x2 j 2) - max (C x1 n 0) (D x2 j 0)) * max c0 (min (C x1 n 3) (D x2 j 3) - max (C x1 n 1) (D x2 j 1)) := by
  simp only [val_main_v136_apply, val_main_v133_apply, val_main_v132_apply, val_main_v135_apply, val_main_v134_apply,
    val_main_v131_apply, val_main_call0_v1_apply, val_main_call0_v0_apply, val_main_cst_19_apply, val_main_v130_apply,
    val_main_v129_apply, val_main_v127_apply, val_main_v124_apply, val_main_v123_apply, val_main_v128_apply,
    val_main_v126_apply, val_main_v125_apply, val_main_v122_apply, val_main_v120_apply, val_main_v117_apply,
    val_main_v116_apply, val_main_v121_apply, val_main_v119_apply, val_main_v118_apply]
  rw [sq0, sq1]
  rw [show idx_main_v123 (idx_main_v124 (idx_main_v127 (ix3 n j (0 : Fin 2)))) = ix2 n (2 : Fin 4) from (by idx_ext),
    show idx_main_v125 (idx_main_v126 (idx_main_v128 (ix3 n j (0 : Fin 2)))) = ix2 j (2 : Fin 4) from (by idx_ext),
    show idx_main_v116 (idx_main_v117 (idx_main_v120 (ix3 n j (0 : Fin 2)))) = ix2 n (0 : Fin 4) from (by idx_ext),
    show idx_main_v118 (idx_main_v119 (idx_main_v121 (ix3 n j (0 : Fin 2)))) = ix2 j (0 : Fin 4) from (by idx_ext),
    show idx_main_v123 (idx_main_v124 (idx_main_v127 (ix3 n j (1 : Fin 2)))) = ix2 n (3 : Fin 4) from (by idx_ext),
    show idx_main_v125 (idx_main_v126 (idx_main_v128 (ix3 n j (1 : Fin 2)))) = ix2 j (3 : Fin 4) from (by idx_ext),
    show idx_main_v116 (idx_main_v117 (idx_main_v120 (ix3 n j (1 : Fin 2)))) = ix2 n (1 : Fin 4) from (by idx_ext),
    show idx_main_v118 (idx_main_v119 (idx_main_v121 (ix3 n j (1 : Fin 2)))) = ix2 j (1 : Fin 4) from (by idx_ext)]
  rfl

/-- The hull's area. -/
theorem v164_at (n : Fin 14400) (j : Fin 1600) : val_main_v164 (F := Ideal) x1 x2 (ix2 n j)
    = max c0 (max (C x1 n 2) (D x2 j 2) - min (C x1 n 0) (D x2 j 0)) * max c0 (max (C x1 n 3) (D x2 j 3) - min (C x1 n 1) (D x2 j 1)) := by
  simp only [val_main_v164_apply, val_main_v161_apply, val_main_v160_apply, val_main_v163_apply, val_main_v162_apply,
    val_main_v159_apply, val_main_call1_v1_apply, val_main_call1_v0_apply, val_main_cst_20_apply, val_main_v158_apply,
    val_main_v157_apply, val_main_v155_apply, val_main_v152_apply, val_main_v151_apply, val_main_v156_apply,
    val_main_v154_apply, val_main_v153_apply, val_main_v150_apply, val_main_v148_apply, val_main_v145_apply,
    val_main_v144_apply, val_main_v149_apply, val_main_v147_apply, val_main_v146_apply]
  rw [sr0, sr1]
  rw [show idx_main_v151 (idx_main_v152 (idx_main_v155 (ix3 n j (0 : Fin 2)))) = ix2 n (2 : Fin 4) from (by idx_ext),
    show idx_main_v153 (idx_main_v154 (idx_main_v156 (ix3 n j (0 : Fin 2)))) = ix2 j (2 : Fin 4) from (by idx_ext),
    show idx_main_v144 (idx_main_v145 (idx_main_v148 (ix3 n j (0 : Fin 2)))) = ix2 n (0 : Fin 4) from (by idx_ext),
    show idx_main_v146 (idx_main_v147 (idx_main_v149 (ix3 n j (0 : Fin 2)))) = ix2 j (0 : Fin 4) from (by idx_ext),
    show idx_main_v151 (idx_main_v152 (idx_main_v155 (ix3 n j (1 : Fin 2)))) = ix2 n (3 : Fin 4) from (by idx_ext),
    show idx_main_v153 (idx_main_v154 (idx_main_v156 (ix3 n j (1 : Fin 2)))) = ix2 j (3 : Fin 4) from (by idx_ext),
    show idx_main_v144 (idx_main_v145 (idx_main_v148 (ix3 n j (1 : Fin 2)))) = ix2 n (1 : Fin 4) from (by idx_ext),
    show idx_main_v146 (idx_main_v147 (idx_main_v149 (ix3 n j (1 : Fin 2)))) = ix2 j (1 : Fin 4) from (by idx_ext)]
  rfl

/-- The union's area. -/
theorem v142_at (n : Fin 14400) (j : Fin 1600) : val_main_v142 (F := Ideal) x1 x2 (ix2 n j)
    = (val_main_v104 (F := Ideal) x1 (ix1 n) + val_main_v115 (F := Ideal) x2 (ix1 j)) - val_main_v136 (F := Ideal) x1 x2 (ix2 n j) := by
  rw [val_main_v142_apply, val_main_v141_apply, val_main_v139_apply, val_main_v137_apply, val_main_v140_apply, val_main_v138_apply]
  rw [show idx_main_v137 (idx_main_v139 (ix2 n j)) = ix1 n from (by idx_ext), show idx_main_v138 (idx_main_v140 (ix2 n j)) = ix1 j from (by idx_ext)]
  rfl

/-- The entry of prediction n and target j, in the reference's arrangement. -/
theorem v176_at (n : Fin 14400) (j : Fin 1600) : val_main_v176 (F := Ideal) x0 x1 x2 x3 (ix2 n j)
    = entryR (fun k => val_main_v0 (F := Ideal) x0 (ix2 n k)) (fun k => val_main_v2 (F := Ideal) x3 (ix2 j k))
        (P x1 n 0) (P x1 n 1) (P x1 n 2) (P x1 n 3) (Q x2 j 0) (Q x2 j 1) (Q x2 j 2) (Q x2 j 3) := by
  obtain ⟨c0', c1', c2', c3'⟩ := v68_at x1 n
  obtain ⟨d0', d1', d2', d3'⟩ := v93_at x2 j
  simp only [val_main_v176_apply, val_main_v173_apply, val_main_v170_apply, val_main_v169_apply, val_main_cst_21_apply,
    val_main_v172_apply, val_main_v171_apply, val_main_cst_22_apply, val_main_v175_apply, val_main_v174_apply,
    val_main_cst_23_apply, val_main_v168_apply, val_main_v167_apply, val_main_v143_apply, val_main_v166_apply,
    val_main_v165_apply]
  rw [v43_at, cls_at, v142_at, v136_at, v164_at, v104_at, v115_at]
  unfold C D
  rw [c0', c1', c2', c3', d0', d1', d2', d3']
  rfl

end Cert.ReferenceIdeal.Ref

end
-- ==== Proof.Bridge.lean ====
/-
  The two cost matrices are one.

  Entry (n, j) of the kernel's matrix is the entry of row n of the flattened logits and prediction boxes against
  column j of the transposed labels and target boxes; entry (n, j) of the reference's is the entry of the same row
  against row j of the untransposed arrays. A transposed array read at (k, j) is the array at (j, k), so the two
  entries take the same numbers; they are the two arrangements of one matching cost, equal when the box coordinates
  are real.
-/
import proofs.«167287_j34170759807565_1_alg».proof.Proof.KernelArray
import proofs.«167287_j34170759807565_1_alg».proof.Proof.RefGiou
import Idealize.ShloMosaic.Lib.ValueLayout

noncomputable section

namespace Cert.Bridge

open Cert.Matcher Idealize.ShloMosaic Idealize.ShloMosaic.TcCoe Idealize.ShloMosaic.ValueIdx
open Cert.ReferenceIdeal.Read Cert.ReferenceIdeal.Ref

/-- For arguments whose box coordinates are real, the reference's [14400, 1600] matrix is the kernel's. -/
theorem matrix_eq (c : Dev Cert.KernelIdeal.nD)
    (m : (ℓ : Loc Cert.KernelIdeal.nD Cert.KernelIdeal.τ Cert.KernelIdeal.sig) → Buf (Elt Ideal) ℓ)
    (h1 : ∀ i, ∃ r : ℝ, m ((c : Thread Cert.KernelIdeal.nD Cert.KernelIdeal.τ).loc Cert.KernelIdeal.main_arg1) i = (r : EReal))
    (h2 : ∀ i, ∃ r : ℝ, m ((c : Thread Cert.KernelIdeal.nD Cert.KernelIdeal.τ).loc Cert.KernelIdeal.main_arg2) i = (r : EReal)) :
    val_main_v176 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.KernelIdeal.Arr.costM c m := by
  funext i
  obtain ⟨n, j, rfl⟩ : ∃ (n : Fin 14400) (j : Fin 1600), i = ix2 n j := ⟨i 0, i 1, eq_ix2 i⟩
  rw [v176_at]
  set a0 := (m ((c : Thread Cert.KernelIdeal.nD Cert.KernelIdeal.τ).loc Cert.KernelIdeal.main_arg0)) with ha0
  set a1 := (m ((c : Thread Cert.KernelIdeal.nD Cert.KernelIdeal.τ).loc Cert.KernelIdeal.main_arg1)) with ha1
  set a2 := (m ((c : Thread Cert.KernelIdeal.nD Cert.KernelIdeal.τ).loc Cert.KernelIdeal.main_arg2)) with ha2
  set a3 := (m ((c : Thread Cert.KernelIdeal.nD Cert.KernelIdeal.τ).loc Cert.KernelIdeal.main_arg3)) with ha3
  have hP : ∀ k : Fin 4, ∃ r : ℝ, P a1 n k = (r : EReal) := fun k => h1 _
  have hQ : ∀ k : Fin 4, ∃ r : ℝ, Q a2 j k = (r : EReal) := fun k => h2 _
  obtain ⟨p0, hp0⟩ := hP 0
  obtain ⟨p1, hp1⟩ := hP 1
  obtain ⟨p2, hp2⟩ := hP 2
  obtain ⟨p3, hp3⟩ := hP 3
  obtain ⟨q0, hq0⟩ := hQ 0
  obtain ⟨q1, hq1⟩ := hQ 1
  obtain ⟨q2, hq2⟩ := hQ 2
  obtain ⟨q3, hq3⟩ := hQ 3
  have key : entryR (fun k => val_main_v0 (F := Ideal) a0 (ix2 n k)) (fun k => val_main_v2 (F := Ideal) a3 (ix2 j k))
        (P a1 n 0) (P a1 n 1) (P a1 n 2) (P a1 n 3) (Q a2 j 0) (Q a2 j 1) (Q a2 j 2) (Q a2 j 3)
      = entryK (fun k => val_main_v0 (F := Ideal) a0 (ix2 n k)) (fun k => val_main_v2 (F := Ideal) a3 (ix2 j k))
        (P a1 n 0) (P a1 n 1) (P a1 n 2) (P a1 n 3) (Q a2 j 0) (Q a2 j 1) (Q a2 j 2) (Q a2 j 3) := by
    rw [hp0, hp1, hp2, hp3, hq0, hq1, hq2, hq3]
    exact entryR_eq _ _ p0 p1 p2 p3 q0 q1 q2 q3
  refine key.trans ?_
  unfold Cert.KernelIdeal.Arr.costM
  rw [Cert.KernelIdeal.Arr.costOf_ix2]
  unfold Cert.KernelIdeal.Arr.cellAt
  simp only [truncf_apply, transpose_ix2_apply]
  rfl

end Cert.Bridge

end
-- ==== Proof.Finite.lean ====
/-
  What the precondition gives: every prediction-box and target-box coordinate is a real number.

  The precondition is the conjunction of four tests, one per argument, each saying that every entry's absolute
  value is below +∞. An extended real whose absolute value max(x, −x) is below +∞ is neither −∞ nor +∞. Only the two
  box arguments are needed: their coordinates enter a cancellation, (c + ½ w) − (c − ½ w) = w, that holds for reals.
-/
import proofs.«167287_j34170759807565_1_alg».proof.Pre_finite_inputs
import Idealize.ShloMosaic.Lib.ReduceAll
import Idealize.ShloMosaic.Lib.ValueIdx
import Idealize.ShloMosaic.PureOps.Ideal

noncomputable section

namespace Cert.Matcher.Finite

open Idealize.ShloMosaic Cert.Pre_finite_inputs

instance : Subsingleton S_.Idx := ⟨fun a b => funext fun d => d.elim0⟩

/-- The word 0x7F800000 is +∞. -/
theorem inf_word : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

variable [Facts]

/-- Under the precondition both box arguments hold real numbers only. -/
theorem boxes_real (a0 : FVec Ideal S16x900x256 .f32) (a1 : FVec Ideal S16x900x4 .f32) (a2 : FVec Ideal S16x100x4 .f32)
    (a3 : FVec Ideal S16x100x256 .f32) (h : fn (F := Ideal) a0 a1 a2 a3 = fun _ => 1#1) :
    (∀ i, ∃ r : ℝ, a1 i = (r : EReal)) ∧ (∀ i, ∃ r : ℝ, a2 i = (r : EReal)) := by
  have h0 := congrFun h ValueIdx.ix0
  dsimp only [fn, fn_part1] at h0
  obtain ⟨h012, -⟩ := IntOp.andi_eq_one.1 h0
  obtain ⟨h01, h2⟩ := IntOp.andi_eq_one.1 h012
  obtain ⟨-, h1⟩ := IntOp.andi_eq_one.1 h01
  exact ⟨fun i => real_of_abs_lt _ (Host.reduce_andi_all _ _ _ _ _ h1 i),
    fun i => real_of_abs_lt _ (Host.reduce_andi_all _ _ _ _ _ h2 i)⟩

end Cert.Matcher.Finite

end
-- ==== Proof.lean ====
/-
  The certificate of the fused matching-cost kernel.

  The kernel computes, for 14400 predictions and 1600 targets, the matrix 5 · L1 + 1 · class + 2 · (−GIoU): a focal
  class cost contracted with the token labels on the matrix unit, the L1 distance of the boxes and their generalised
  IoU. Its grid of 60 points writes one 240 × 1600 tile each; the tiles cover the matrix, which is then viewed as
  [16, 900, 1600]. The reference computes the same matrix with whole-array jnp operations.

  The three frames are the generated ones (the reference's is its generated run with the result dropped), and the
  idealization rewrote nothing. For the value claim both programs end with the same reshape of a [14400, 1600] matrix,
  so it is enough that the two matrices are equal entry by entry (Bridge.lean): each entry is one function of a row of
  logits, a row of labels and two boxes, written in two arrangements that agree when the box coordinates are real
  numbers (Spec.lean), which the precondition gives (Finite.lean).
-/
import proofs.«167287_j34170759807565_1_alg».proof.Defs
import proofs.«167287_j34170759807565_1_alg».proof.Proof.Gen.Kernel
import proofs.«167287_j34170759807565_1_alg».proof.Proof.Gen.Kernel.Skeleton
import proofs.«167287_j34170759807565_1_alg».proof.Proof.Gen.Kernel.Launch
import proofs.«167287_j34170759807565_1_alg».proof.Proof.Gen.Kernel.Points
import proofs.«167287_j34170759807565_1_alg».proof.Proof.Gen.Kernel.Frame
import proofs.«167287_j34170759807565_1_alg».proof.Proof.Gen.KernelIdeal
import proofs.«167287_j34170759807565_1_alg».proof.Proof.Gen.KernelIdeal.Skeleton
import proofs.«167287_j34170759807565_1_alg».proof.Proof.Gen.KernelIdeal.Launch
import proofs.«167287_j34170759807565_1_alg».proof.Proof.Gen.KernelIdeal.Points
import proofs.«167287_j34170759807565_1_alg».proof.Proof.Gen.KernelIdeal.Frame
import proofs.«167287_j34170759807565_1_alg».proof.Proof.Gen.ReferenceIdeal
import proofs.«167287_j34170759807565_1_alg».proof.Proof.Gen.Pre_finite_inputs
import proofs.«167287_j34170759807565_1_alg».proof.Proof.Gen.ReferenceIdeal.Run
import proofs.«167287_j34170759807565_1_alg».proof.Proof.Gen.ReferenceIdeal.Read
import proofs.«167287_j34170759807565_1_alg».proof.Proof.Bridge
import proofs.«167287_j34170759807565_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the cost matrix viewed as [16, 900, 1600]; under the precondition the box coordinates are
    real, so the reference's matrix is the kernel's. -/
theorem algebraic : Cert.algebraic_KernelIdeal_ReferenceIdeal := by
  intro m ρ m' ρ' hpre hagree
  refine ⟨fun c => shapeCast _ (Cert.KernelIdeal.Arr.costM c m) Cert.KernelIdeal.Gen.shapeCasts_S14400x1600_S16x900x1600,
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  obtain ⟨hb1, hb2⟩ := Cert.Matcher.Finite.boxes_real _ _ _ _ (hpre c)
  rw [Cert.ReferenceIdeal.Read.val_main_v177_eq, e0, e1, e2, e3]
  unfold Cert.ReferenceIdeal.Read.val_main_v177
  rw [Cert.Bridge.matrix_eq c m hb1 hb2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
